-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x96x128x128 : Shape := ⟨5, ![8, 1, 96, 128, 128]⟩
abbrev S_ : Shape := ⟨0, ![]⟩

class Facts : Prop where
  bcast_S_S8x1x96x128x128 : S_.BroadcastsInDim S8x1x96x128x128 (![] : Fin 0 → Fin S8x1x96x128x128.rank)
  reducesTo_S8x1x96x128x128_S_d0_1_2_3_4 : S8x1x96x128x128.ReducesTo [0, 1, 2, 3, 4] S_
  h_S_ : 0 < S_.numel

variable [Facts]

def fn {F : FTy → Type} [FloatOps F] (main_arg0 : FVec F S8x1x96x128x128 .f32) (main_arg1 : FVec F S8x1x96x128x128 .f32) : IVec S_ 1 :=
  let main_v0 : FVec F S8x1x96x128x128 .f32 := Host.absf main_arg0
  let main_cst : FVec F S_ .f32 := constant S_ .f32 0x7F800000#32
  let main_v1 : FVec F S8x1x96x128x128 .f32 := broadcastInDim S8x1x96x128x128 ![] bcast_S_S8x1x96x128x128 main_cst
  let main_v2 : IVec S8x1x96x128x128 1 := cmpf .olt main_v0 main_v1
  let main_c : IVec S_ 1 := constantI S_ 1 1#1
  let main_v3 : IVec S_ 1 := (fun x v => Host.reduce IntOp.andi x v reducesTo_S8x1x96x128x128_S_d0_1_2_3_4 h_S_) main_v2 main_c
  let main_v4 : FVec F S8x1x96x128x128 .f32 := Host.absf main_arg1
  let main_cst_0 : FVec F S_ .f32 := constant S_ .f32 0x7F800000#32
  let main_v5 : FVec F S8x1x96x128x128 .f32 := broadcastInDim S8x1x96x128x128 ![] bcast_S_S8x1x96x128x128 main_cst_0
  let main_v6 : IVec S8x1x96x128x128 1 := cmpf .olt main_v4 main_v5
  let main_c_1 : IVec S_ 1 := constantI S_ 1 1#1
  let main_v7 : IVec S_ 1 := (fun x v => Host.reduce IntOp.andi x v reducesTo_S8x1x96x128x128_S_d0_1_2_3_4 h_S_) main_v6 main_c_1
  let main_v8 : IVec S_ 1 := andi main_v3 main_v7
  main_v8
-- ==== Kernel.lean ====
abbrev S8x1x96x128x128 : Shape := ⟨5, ![8, 1, 96, 128, 128]⟩
abbrev S98304x128 : Shape := ⟨2, ![98304, 128]⟩
abbrev S2x16x128 : Shape := ⟨3, ![2, 16, 128]⟩
abbrev S16384x128 : Shape := ⟨2, ![16384, 128]⟩
abbrev S1x16x128 : Shape := ⟨3, ![1, 16, 128]⟩
abbrev S16x128 : Shape := ⟨2, ![16, 128]⟩
abbrev S1x128 : Shape := ⟨2, ![1, 128]⟩
abbrev S128 : Shape := ⟨1, ![128]⟩
abbrev S2x10x128 : Shape := ⟨3, ![2, 10, 128]⟩
abbrev S_ : Shape := ⟨0, ![]⟩
abbrev S10 : Shape := ⟨1, ![10]⟩

abbrev nBuf : Space → Nat
  | .hbm => 35
  | .vmem => 10
  | .smem => 0
  | _ => 0

abbrev bufTy : (tb : Table) → Fin (tcTables nBuf tb) → BufTy
  | .hbm, ⟨0, _⟩ => ⟨S8x1x96x128x128, .f32⟩
  | .hbm, ⟨1, _⟩ => ⟨S8x1x96x128x128, .f32⟩
  | .hbm, ⟨2, _⟩ => ⟨S98304x128, .f32⟩
  | .hbm, ⟨3, _⟩ => ⟨S98304x128, .f32⟩
  | .hbm, ⟨4, _⟩ => ⟨S98304x128, .bf16⟩
  | .hbm, ⟨5, _⟩ => ⟨S2x16x128, .f32⟩
  | .hbm, ⟨6, _⟩ => ⟨S2x16x128, .f32⟩
  | .hbm, ⟨7, _⟩ => ⟨S2x10x128, .f32⟩
  | .hbm, ⟨8, _⟩ => ⟨S_, .f32⟩
  | .hbm, ⟨9, _⟩ => ⟨S10, .f32⟩
  | .hbm, ⟨10, _⟩ => ⟨S2x10x128, .f32⟩
  | .hbm, ⟨11, _⟩ => ⟨S_, .f32⟩
  | .hbm, ⟨12, _⟩ => ⟨S10, .f32⟩
  | .hbm, ⟨13, _⟩ => ⟨S_, .f32⟩
  | .hbm, ⟨14, _⟩ => ⟨S10, .f32⟩
  | .hbm, ⟨15, _⟩ => ⟨S10, .i1⟩
  | .hbm, ⟨16, _⟩ => ⟨S10, .i32⟩
  | .hbm, ⟨17, _⟩ => ⟨S_, .i32⟩
  | .hbm, ⟨18, _⟩ => ⟨S_, .i32⟩
  | .hbm, ⟨19, _⟩ => ⟨S_, .f32⟩
  | .hbm, ⟨20, _⟩ => ⟨S_, .f32⟩
  | .hbm, ⟨21, _⟩ => ⟨S10, .f32⟩
  | .hbm, ⟨22, _⟩ => ⟨S10, .f32⟩
  | .hbm, ⟨23, _⟩ => ⟨S_, .f32⟩
  | .hbm, ⟨24, _⟩ => ⟨S10, .f32⟩
  | .hbm, ⟨25, _⟩ => ⟨S10, .f32⟩
  | .hbm, ⟨26, _⟩ => ⟨S_, .f32⟩
  | .hbm, ⟨27, _⟩ => ⟨S_, .f32⟩
  | .hbm, ⟨28, _⟩ => ⟨S10, .f32⟩
  | .hbm, ⟨29, _⟩ => ⟨S10, .f32⟩
  | .hbm, ⟨30, _⟩ => ⟨S10, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S16384x128, .f32⟩
  | .local _ .vmem, ⟨1, _⟩ => ⟨S16384x128, .f32⟩
  | .local _ .vmem, ⟨2, _⟩ => ⟨S16384x128, .bf16⟩
  | .local _ .vmem, ⟨3, _⟩ => ⟨S16384x128, .bf16⟩
  | .local _ .vmem, ⟨4, _⟩ => ⟨S1x16x128, .f32⟩
  | .local _ .vmem, ⟨5, _⟩ => ⟨S1x16x128, .f32⟩
  | .local _ .vmem, ⟨6, _⟩ => ⟨S1x16x128, .f32⟩
  | .local _ .vmem, ⟨7, _⟩ => ⟨S1x16x128, .f32⟩
  | .local _ .vmem, ⟨8, _⟩ => ⟨S16x128, .f32⟩
  | .local _ .vmem, ⟨9, _⟩ => ⟨S16x128, .f32⟩
  | _, _ => ⟨S8x1x96x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 3], ![false, false]⟩

def k0_cond2 (i : grid0.Coords) : BitVec 1 :=
  let arg1 : BitVec 32 := BitVec.ofNat 32 (i 1).val
  let c2_i32_99 : BitVec 32 := 2#32
  let v217 : BitVec 1 := Scalar.cmpi .eq arg1 c2_i32_99
  let v218 : BitVec 32 := Scalar.extui v217
  let c0_i32_100 : BitVec 32 := 0#32
  let v219 : BitVec 1 := Scalar.cmpi .ne v218 c0_i32_100
  v219

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8x1x96x128x128_S98304x128 : S8x1x96x128x128.ShapeCasts S98304x128
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  natLt_1_32 : 1 < 32
  inb_S16x128_S1x128_0_0 : ∀ a, (![0, 0] : Fin 2 → Nat) a + S1x128.size a ≤ S16x128.size a
  h_S1x128 : 0 < S1x128.numel
  shapeCasts_S1x128_S128 : S1x128.ShapeCasts S128
  reduces_S16384x128_S128 : S16384x128.Reduces [0] S128
  shapeCasts_S128_S1x128 : S128.ShapeCasts S1x128
  inb_S16x128_S1x128_1_0 : ∀ a, (![1, 0] : Fin 2 → Nat) a + S1x128.size a ≤ S16x128.size a
  inb_S16x128_S1x128_2_0 : ∀ a, (![2, 0] : Fin 2 → Nat) a + S1x128.size a ≤ S16x128.size a
  inb_S16x128_S1x128_3_0 : ∀ a, (![3, 0] : Fin 2 → Nat) a + S1x128.size a ≤ S16x128.size a
  inb_S16x128_S1x128_4_0 : ∀ a, (![4, 0] : Fin 2 → Nat) a + S1x128.size a ≤ S16x128.size a
  inb_S16x128_S1x128_5_0 : ∀ a, (![5, 0] : Fin 2 → Nat) a + S1x128.size a ≤ S16x128.size a
  inb_S16x128_S1x128_6_0 : ∀ a, (![6, 0] : Fin 2 → Nat) a + S1x128.size a ≤ S16x128.size a
  inb_S16x128_S1x128_7_0 : ∀ a, (![7, 0] : Fin 2 → Nat) a + S1x128.size a ≤ S16x128.size a
  inb_S16x128_S1x128_8_0 : ∀ a, (![8, 0] : Fin 2 → Nat) a + S1x128.size a ≤ S16x128.size a
  inb_S16x128_S1x128_9_0 : ∀ a, (![9, 0] : Fin 2 → Nat) a + S1x128.size a ≤ S16x128.size a
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  shapeCasts_S16x128_S1x16x128 : S16x128.ShapeCasts S1x16x128
  slices_S2x16x128_S2x10x128_0_0_0 : S2x16x128.Slices ![0, 0, 0] S2x10x128
  reducesTo_S2x10x128_S10_d0_2 : S2x10x128.ReducesTo [0, 2] S10
  h_S_ : 0 < S_.numel
  bcast_S_S10 : S_.BroadcastsInDim S10 (![] : Fin 0 → Fin S10.rank)
  reducesTo_S10_S_d0 : S10.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S98304x128.size a
  hwx0_0 : ∀ i : grid0.Coords, EltTy.bits .f32 = 32 ∨ (Rect.block (s := S98304x128) S16384x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S98304x128.size a
  hwx0_1 : ∀ i : grid0.Coords, EltTy.bits .bf16 = 32 ∨ (Rect.block (s := S98304x128) S16384x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128.size a ≤ S2x16x128.size a
  hwx0_2 : ∀ i : grid0.Coords, EltTy.bits .f32 = 32 ∨ (Rect.block (s := S2x16x128) S1x16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x128.size a ≤ S2x16x128.size a
  hwx0_3 : ∀ i : grid0.Coords, EltTy.bits .f32 = 32 ∨ (Rect.block (s := S2x16x128) S1x16x128.size (cc0_transform_3 i) (hinb0_3 i)).WholeWords (EltTy.packing .f32)

variable [Facts₀]

abbrev win0_0 : Pipeline.Window sig grid0 :=
  Pipeline.Window.ofSpec (Memref.whole main_v0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16384x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x16x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x16x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x1x96x128x128 : Shape := ⟨5, ![8, 1, 96, 128, 128]⟩
abbrev S_ : Shape := ⟨0, ![]⟩
abbrev S12582912 : Shape := ⟨1, ![12582912]⟩
abbrev S10 : Shape := ⟨1, ![10]⟩
abbrev S12582912x1 : Shape := ⟨2, ![12582912, 1]⟩
abbrev S8x1x96x128x128x1 : Shape := ⟨6, ![8, 1, 96, 128, 128, 1]⟩

abbrev nBuf : Space → Nat
  | .hbm => 72
  | .vmem => 0
  | .smem => 0
  | _ => 0

abbrev bufTy : (tb : Table) → Fin (tcTables nBuf tb) → BufTy
  | .hbm, ⟨0, _⟩ => ⟨S8x1x96x128x128, .f32⟩
  | .hbm, ⟨1, _⟩ => ⟨S8x1x96x128x128, .f32⟩
  | .hbm, ⟨2, _⟩ => ⟨S8x1x96x128x128, .f32⟩
  | .hbm, ⟨3, _⟩ => ⟨S8x1x96x128x128, .f32⟩
  | .hbm, ⟨4, _⟩ => ⟨S_, .f32⟩
  | .hbm, ⟨5, _⟩ => ⟨S8x1x96x128x128, .f32⟩
  | .hbm, ⟨6, _⟩ => ⟨S8x1x96x128x128, .f32⟩
  | .hbm, ⟨7, _⟩ => ⟨S_, .f32⟩
  | .hbm, ⟨8, _⟩ => ⟨S8x1x96x128x128, .f32⟩
  | .hbm, ⟨9, _⟩ => ⟨S8x1x96x128x128, .f32⟩
  | .hbm, ⟨10, _⟩ => ⟨S8x1x96x128x128, .f32⟩
  | .hbm, ⟨11, _⟩ => ⟨S8x1x96x128x128, .f32⟩
  | .hbm, ⟨12, _⟩ => ⟨S_, .f32⟩
  | .hbm, ⟨13, _⟩ => ⟨S8x1x96x128x128, .f32⟩
  | .hbm, ⟨14, _⟩ => ⟨S8x1x96x128x128, .f32⟩
  | .hbm, ⟨15, _⟩ => ⟨S8x1x96x128x128, .f32⟩
  | .hbm, ⟨16, _⟩ => ⟨S8x1x96x128x128, .i32⟩
  | .hbm, ⟨17, _⟩ => ⟨S_, .i32⟩
  | .hbm, ⟨18, _⟩ => ⟨S8x1x96x128x128, .i32⟩
  | .hbm, ⟨19, _⟩ => ⟨S8x1x96x128x128, .i32⟩
  | .hbm, ⟨20, _⟩ => ⟨S12582912, .i32⟩
  | .hbm, ⟨21, _⟩ => ⟨S_, .f32⟩
  | .hbm, ⟨22, _⟩ => ⟨S10, .f32⟩
  | .hbm, ⟨23, _⟩ => ⟨S_, .i32⟩
  | .hbm, ⟨24, _⟩ => ⟨S12582912, .i32⟩
  | .hbm, ⟨25, _⟩ => ⟨S12582912, .i1⟩
  | .hbm, ⟨26, _⟩ => ⟨S_, .i32⟩
  | .hbm, ⟨27, _⟩ => ⟨S12582912, .i32⟩
  | .hbm, ⟨28, _⟩ => ⟨S12582912, .i32⟩
  | .hbm, ⟨29, _⟩ => ⟨S12582912, .i32⟩
  | .hbm, ⟨30, _⟩ => ⟨S12582912x1, .i32⟩
  | .hbm, ⟨31, _⟩ => ⟨S_, .f32⟩
  | .hbm, ⟨32, _⟩ => ⟨S12582912, .f32⟩
  | .hbm, ⟨33, _⟩ => ⟨S10, .f32⟩
  | .hbm, ⟨34, _⟩ => ⟨S_, .f32⟩
  | .hbm, ⟨35, _⟩ => ⟨S10, .f32⟩
  | .hbm, ⟨36, _⟩ => ⟨S10, .i1⟩
  | .hbm, ⟨37, _⟩ => ⟨S10, .i32⟩
  | .hbm, ⟨38, _⟩ => ⟨S_, .i32⟩
  | .hbm, ⟨39, _⟩ => ⟨S_, .i32⟩
  | .hbm, ⟨40, _⟩ => ⟨S_, .f32⟩
  | .hbm, ⟨41, _⟩ => ⟨S_, .i32⟩
  | .hbm, ⟨42, _⟩ => ⟨S8x1x96x128x128, .i32⟩
  | .hbm, ⟨43, _⟩ => ⟨S8x1x96x128x128, .i1⟩
  | .hbm, ⟨44, _⟩ => ⟨S_, .i32⟩
  | .hbm, ⟨45, _⟩ => ⟨S8x1x96x128x128, .i32⟩
  | .hbm, ⟨46, _⟩ => ⟨S8x1x96x128x128, .i32⟩
  | .hbm, ⟨47, _⟩ => ⟨S8x1x96x128x128, .i32⟩
  | .hbm, ⟨48, _⟩ => ⟨S8x1x96x128x128x1, .i32⟩
  | .hbm, ⟨49, _⟩ => ⟨S8x1x96x128x128, .f32⟩
  | .hbm, ⟨50, _⟩ => ⟨S_, .f32⟩
  | .hbm, ⟨51, _⟩ => ⟨S8x1x96x128x128, .f32⟩
  | .hbm, ⟨52, _⟩ => ⟨S8x1x96x128x128, .f32⟩
  | .hbm, ⟨53, _⟩ => ⟨S_, .f32⟩
  | .hbm, ⟨54, _⟩ => ⟨S_, .f32⟩
  | .hbm, ⟨55, _⟩ => ⟨S8x1x96x128x128, .f32⟩
  | .hbm, ⟨56, _⟩ => ⟨S8x1x96x128x128, .f32⟩
  | .hbm, ⟨57, _⟩ => ⟨S_, .f32⟩
  | .hbm, ⟨58, _⟩ => ⟨S8x1x96x128x128, .f32⟩
  | .hbm, ⟨59, _⟩ => ⟨S8x1x96x128x128, .f32⟩
  | .hbm, ⟨60, _⟩ => ⟨S8x1x96x128x128, .f32⟩
  | .hbm, ⟨61, _⟩ => ⟨S8x1x96x128x128, .f32⟩
  | .hbm, ⟨62, _⟩ => ⟨S8x1x96x128x128, .f32⟩
  | .hbm, ⟨63, _⟩ => ⟨S8x1x96x128x128, .f32⟩
  | .hbm, ⟨64, _⟩ => ⟨S8x1x96x128x128, .f32⟩
  | .hbm, ⟨65, _⟩ => ⟨S8x1x96x128x128, .f32⟩
  | .hbm, ⟨66, _⟩ => ⟨S8x1x96x128x128, .f32⟩
  | .hbm, ⟨67, _⟩ => ⟨S8x1x96x128x128, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S8x1x96x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_7 : Ref sig .tc := ⟨.hbm, 38, rfl⟩
abbrev main_v27 : Ref sig .tc := ⟨.hbm, 39, rfl⟩
abbrev main_v28 : Ref sig .tc := ⟨.hbm, 40, rfl⟩
abbrev main_c_8 : Ref sig .tc := ⟨.hbm, 41, rfl⟩
abbrev main_v29 : Ref sig .tc := ⟨.hbm, 42, rfl⟩
abbrev main_v30 : Ref sig .tc := ⟨.hbm, 43, rfl⟩
abbrev main_c_9 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_10 : Ref sig .tc := ⟨.hbm, 50, rfl⟩
abbrev main_v36 : Ref sig .tc := ⟨.hbm, 51, rfl⟩
abbrev main_v37 : Ref sig .tc := ⟨.hbm, 52, rfl⟩
abbrev main_cst_11 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_12 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_13 : Ref sig .tc := ⟨.hbm, 68, rfl⟩
abbrev main_v51 : Ref sig .tc := ⟨.hbm, 69, rfl⟩
abbrev main_cst_14 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  bcast_S_S8x1x96x128x128 : S_.BroadcastsInDim S8x1x96x128x128 (![] : Fin 0 → Fin S8x1x96x128x128.rank)
  shapeCasts_S8x1x96x128x128_S12582912 : S8x1x96x128x128.ShapeCasts S12582912
  bcast_S_S10 : S_.BroadcastsInDim S10 (![] : Fin 0 → Fin S10.rank)
  bcast_S_S12582912 : S_.BroadcastsInDim S12582912 (![] : Fin 0 → Fin S12582912.rank)
  bcast_S12582912_S12582912x1_0 : S12582912.BroadcastsInDim S12582912x1 (![0] : Fin 1 → Fin S12582912x1.rank)
  natLt_1_32 : 1 < 32
  reducesTo_S10_S_d0 : S10.ReducesTo [0] S_
  h_S_ : 0 < S_.numel
  bcast_S8x1x96x128x128_S8x1x96x128x128x1_0_1_2_3_4 : S8x1x96x128x128.BroadcastsInDim S8x1x96x128x128x1 (![0, 1, 2, 3, 4] : Fin 5 → Fin S8x1x96x128x128x1.rank)
  reducesTo_S8x1x96x128x128_S_d0_1_2_3_4 : S8x1x96x128x128.ReducesTo [0, 1, 2, 3, 4] S_
  scatter_S10_S12582912x1_S12582912_n_0_0_1_wf : ScatterDims.WF S10 S12582912x1 S12582912 [] [0] [0] 1
  gather_S10_S8x1x96x128x128x1_S8x1x96x128x128_n_0_n_n_0_5_1_wf : GatherDims.WF S10 S8x1x96x128x128x1 S8x1x96x128x128 [] [0] [] [0] [] 5 ![1]

variable [Facts₀]

def scatter_S10_S12582912x1_S12582912_n_0_0_1 : ScatterDims S10 S12582912x1 S12582912 where
  updateWindowDims := []
  insertedWindowDims := [0]
  scatterDimsToOperandDims := [0]
  indexVectorDim := 1
  wf := scatter_S10_S12582912x1_S12582912_n_0_0_1_wf
def gather_S10_S8x1x96x128x128x1_S8x1x96x128x128_n_0_n_n_0_5_1 : GatherDims S10 S8x1x96x128x128x1 S8x1x96x128x128 where
  offsetDims := []
  collapsedSliceDims := [0]
  operandBatchingDims := []
  startIndicesBatchingDims := []
  startIndexMap := [0]
  indexVectorDim := 5
  sliceSizes := ![1]
  wf := gather_S10_S8x1x96x128x128x1_S8x1x96x128x128_n_0_n_n_0_5_1_wf

class Facts : Prop extends Facts₀ where

variable [Facts]
-- ==== Proof.Elementwise.lean ====
/-
  The loss on the extended reals, over any finite index type of elements.

  Each element `e` has a bin word `b e` and a cross-entropy term `v e`. With `cnt b k` the number of
  elements in bin `k`, one program sums, over the ten bins, the bin's weight `(T / max (cnt k) 1) / max N 1`
  times the sum of the terms of the bin's elements; the other sums over the elements the weight
  `(T / cnt (b e)) / max N 1` of the element's own bin times its term. The two agree: an empty bin's sum is
  zero, a non-empty bin's count is at least one, and a weight is a non-negative real number, which
  distributes over a finite sum of extended reals whatever infinities the terms hold.
-/
import Idealize.ShloMosaic.PureOps.Ideal
import Idealize.ShloMosaic.PureOps.Ideal.Laws
import Idealize.ShloMosaic.Lib.ValueIdx

noncomputable section

namespace Cert.Ghm

open Idealize.ShloMosaic

/-- The literals of the two programs, as the words they print. -/
abbrev zero : EReal := Ideal.ofBits .f32 0x00000000#32
abbrev one : EReal := Ideal.ofBits .f32 0x3F800000#32
abbrev ten : EReal := Ideal.ofBits .f32 0x41200000#32
abbrev tot : EReal := Ideal.ofBits .f32 0x4B400000#32

theorem one_eq : one = 1 := by simp [one, Ideal.ofBits, Ideal.ieee, -EReal.coe_mul] <;> norm_num
theorem tot_eq : tot = ((12582912 : ℝ) : EReal) := by simp [tot, Ideal.ofBits, Ideal.ieee, -EReal.coe_mul] <;> norm_num

/-- The coercion of the reals commutes with `max`. -/
theorem coe_max (a c : ℝ) : max (a : EReal) (c : EReal) = ((max a c : ℝ) : EReal) :=
  (EReal.coe_strictMono.monotone.map_max).symm

/-- The bin word of an element with logit `x` and target `y`: `min ⌊|σ(x) - y| · 10⌋ 9`, the floor taken
    to a 32-bit signed word (clamped at the word's range). -/
def bin (x y : EReal) : BitVec 32 :=
  IntOp.minsi (Ideal.fptosi 32 (Ideal.liftRound Int.floor
    (max (Ideal.logistic x - y) (-(Ideal.logistic x - y)) * ten))) 9#32

/-- The cross-entropy term of an element: `max x 0 - x y + log (1 + exp (-|x|))`. -/
def bce (x y : EReal) : EReal :=
  (max x zero - x * y) + Ideal.log1p (Ideal.exp (-(max x (-x))))

/-- The kernel's spelling of the term: `0 - |x|` in place of `-|x|`. -/
theorem bce_eq (x y : EReal) :
    (max x zero - x * y) + Ideal.log1p (Ideal.exp (zero - max x (-x))) = bce x y := by
  unfold bce
  rw [show zero = 0 from Ideal.ofBits_zero_f32, zero_sub]

/-- The mask of bin word `k` at an element whose bin word is `b`, as a float: one if they agree, else zero. -/
def ind (b k : BitVec 32) : EReal := ((((IntOp.cmpi .eq b k).setWidth 32).toInt : ℝ) : EReal)

theorem ind_eq (b k : BitVec 32) : ind b k = if b = k then (1 : EReal) else 0 := by
  unfold ind IntOp.cmpi
  by_cases h : b = k
  · subst h; simp
  · have hbk : (b == k) = false := by simpa using h
    simp [h, hbk]

/-- The ten bins' index type, and a bin index as a word. -/
abbrev V10 : Shape := ⟨1, ![10]⟩
def kw (i : V10.Idx) : BitVec 32 := BitVec.ofNat 32 (i 0).val

variable {ι : Type} [Fintype ι]

/-- The number of elements whose bin word is `k`. -/
def cnt (b : ι → BitVec 32) (k : BitVec 32) : EReal := ∑ e, if b e = k then (1 : EReal) else 0

/-- The sum of the terms of the elements whose bin word is `k`. -/
def binSum (b : ι → BitVec 32) (v : ι → EReal) (k : BitVec 32) : EReal :=
  ∑ e, (if b e = k then (1 : EReal) else 0) * v e

/-- The loss summed bin by bin. -/
def lossByBin (N : EReal) (b : ι → BitVec 32) (v : ι → EReal) : EReal :=
  Ideal.div (zero + ∑ i : V10.Idx,
    Ideal.div (Ideal.div tot (max (cnt b (kw i)) one)) (max N one) * binSum b v (kw i)) tot

/-- The loss summed element by element. -/
def lossByElement (N : EReal) (b : ι → BitVec 32) (v : ι → EReal) : EReal :=
  Ideal.div (zero + ∑ e, Ideal.div (Ideal.div tot (cnt b (b e))) (max N one) * v e) tot

/-- A sum of ones over the elements that satisfy a predicate is their number. -/
theorem sum_ite_eq_card (s : Finset ι) (p : ι → Prop) [DecidablePred p] :
    (∑ e ∈ s, if p e then (1 : EReal) else 0) = (((s.filter p).card : ℝ) : EReal) := by
  classical
  induction s using Finset.induction_on with
  | empty => simp
  | insert a s ha ih =>
    rw [Finset.sum_insert ha, ih, Finset.filter_insert]
    by_cases hp : p a
    · rw [if_pos hp, if_pos hp, Finset.card_insert_of_notMem (fun h => ha (Finset.mem_filter.mp h).1),
        Nat.cast_add, Nat.cast_one, EReal.coe_add, EReal.coe_one, add_comm]
    · rw [if_neg hp, if_neg hp, zero_add]

/-- A count is a natural number. -/
theorem cnt_eq_card (b : ι → BitVec 32) (k : BitVec 32) :
    cnt b k = (((Finset.univ.filter fun e => b e = k).card : ℝ) : EReal) :=
  sum_ite_eq_card _ _

/-- The count of an element's own bin is at least one. -/
theorem one_le_cnt_self (b : ι → BitVec 32) (e : ι) : (1 : EReal) ≤ cnt b (b e) := by
  classical
  rw [cnt_eq_card]
  have h : 1 ≤ (Finset.univ.filter fun e' => b e' = b e).card :=
    Finset.card_pos.mpr ⟨e, Finset.mem_filter.mpr ⟨Finset.mem_univ _, rfl⟩⟩
  have : (1 : ℝ) ≤ ((Finset.univ.filter fun e' => b e' = b e).card : ℝ) := by exact_mod_cast h
  exact_mod_cast this

/-- A weight is a non-negative real number. -/
theorem weight_real (N : EReal) (hN : ∃ r : ℝ, N = (r : EReal)) (c : EReal) (hc : ∃ n : ℕ, c = ((n : ℝ) : EReal)) :
    ∃ w : ℝ, 0 ≤ w ∧ Ideal.div (Ideal.div tot (max c one)) (max N one) = (w : EReal) := by
  obtain ⟨r, rfl⟩ := hN
  obtain ⟨n, rfl⟩ := hc
  rw [one_eq, tot_eq, ← EReal.coe_one, coe_max, coe_max]
  have h1 : max (n : ℝ) 1 ≠ 0 := by positivity
  have h2 : max r 1 ≠ 0 := by positivity
  rw [Ideal.div_coe h1, ← EReal.coe_mul, Ideal.div_coe h2, ← EReal.coe_mul]
  exact ⟨_, by positivity, rfl⟩

/-- A non-negative real factor distributes over a finite sum of extended reals. -/
theorem coe_mul_sum {κ : Type} (s : Finset κ) (w : ℝ) (hw : 0 ≤ w) (f : κ → EReal) :
    (w : EReal) * ∑ e ∈ s, f e = ∑ e ∈ s, (w : EReal) * f e := by
  classical
  induction s using Finset.induction_on with
  | empty => simp
  | insert a s ha ih =>
    rw [Finset.sum_insert ha, Finset.sum_insert ha, ← ih]
    exact EReal.left_distrib_of_nonneg_of_ne_top (by exact_mod_cast hw) (EReal.coe_ne_top w) _ _

theorem kw_injective : Function.Injective kw := by
  intro i j h
  funext a
  obtain rfl : a = 0 := Subsingleton.elim _ _
  have hi : (i 0).val < 10 := (i 0).isLt
  have hj : (j 0).val < 10 := (j 0).isLt
  have := congrArg BitVec.toNat h
  simp only [kw, BitVec.toNat_ofNat] at this
  exact Fin.ext (by omega)

/-- THE LAW: summed bin by bin or element by element, the loss is the same, when every element's bin is one
    of the ten and the divisor `N` is a real number. -/
theorem lossByBin_eq_lossByElement (N : EReal) (hN : ∃ r : ℝ, N = (r : EReal)) (b : ι → BitVec 32)
    (v : ι → EReal) (hb : ∀ e, ∃ i : V10.Idx, b e = kw i) :
    lossByBin N b v = lossByElement N b v := by
  classical
  unfold lossByBin lossByElement
  congr 2
  have hW : ∀ i : V10.Idx, ∃ w : ℝ, 0 ≤ w ∧
      Ideal.div (Ideal.div tot (max (cnt b (kw i)) one)) (max N one) = (w : EReal) :=
    fun i => weight_real N hN _ ⟨_, cnt_eq_card b (kw i)⟩
  calc ∑ i : V10.Idx, Ideal.div (Ideal.div tot (max (cnt b (kw i)) one)) (max N one) * binSum b v (kw i)
      = ∑ i : V10.Idx, ∑ e, Ideal.div (Ideal.div tot (max (cnt b (kw i)) one)) (max N one)
          * ((if b e = kw i then (1 : EReal) else 0) * v e) := by
        refine Finset.sum_congr rfl fun i _ => ?_
        obtain ⟨w, hw, hWi⟩ := hW i
        rw [hWi]
        exact coe_mul_sum _ w hw _
    _ = ∑ e, ∑ i : V10.Idx, Ideal.div (Ideal.div tot (max (cnt b (kw i)) one)) (max N one)
          * ((if b e = kw i then (1 : EReal) else 0) * v e) := Finset.sum_comm
    _ = ∑ e, Ideal.div (Ideal.div tot (cnt b (b e))) (max N one) * v e := by
        refine Finset.sum_congr rfl fun e _ => ?_
        obtain ⟨i, hi⟩ := hb e
        rw [Finset.sum_eq_single i]
        · rw [if_pos hi, one_mul, ← hi, max_eq_left (by rw [one_eq]; exact one_le_cnt_self b e)]
        · intro j _ hj
          rw [if_neg (fun h => hj (kw_injective (h.symm.trans hi))), zero_mul, mul_zero]
        · intro h; exact absurd (Finset.mem_univ i) h

end Cert.Ghm

end
-- ==== Proof.KernelRows.lean ====
/-
  One row of an accumulator after one grid point, at the exact values.

  The kernel keeps, for each of the ten bins, a row of 128 lane-wise partial counts and a row of 128 lane-wise
  partial sums. At a grid point it adds to row `k`, lane `l`, the number of the block's 16384 elements of
  lane `l` whose bin word is `k` (a column sum of the mask), and to the sums' row the column sum of mask
  times cross-entropy term. The body's stores spell these updates in several ways; each is the one
  function `rowCnt` / `rowSum` below.
-/
import proofs.«171834_j35974646072039_2_alg».proof.Proof.Gen.KernelIdeal.Skeleton
import proofs.«171834_j35974646072039_2_alg».proof.Proof.Elementwise
import Idealize.ShloMosaic.Lib.ValueIdx
import Idealize.ShloMosaic.Lib.ValueLayout
import Idealize.ShloMosaic.PureOps.Ideal.Laws

noncomputable section

namespace Cert.KernelIdeal.Rows

open Idealize.ShloMosaic Idealize.ShloMosaic.ValueIdx Cert.KernelIdeal Cert.KernelIdeal.Gen

/-- The mask of bin word `kw` over a block's bin words, as floats. -/
def maskOf (kw : BitVec 32) (v16 : IVec S16384x128 32) : FVec Ideal S16384x128 .f32 :=
  sitofp .f32 (extui 32 (cmpi .eq v16 (broadcast S16384x128 kw)) natLt_1_32)

/-- A counts' row after a point: the old row plus the mask's column sums. -/
def rowCnt (kw : BitVec 32) (v16 : IVec S16384x128 32) (old : Vec Ideal S1x128 .f32) : FVec Ideal S1x128 .f32 :=
  shapeCast S1x128 (addf (shapeCast S128 old shapeCasts_S1x128_S128)
    (multiReduction .add [0] S128 (maskOf kw v16) 0x00000000#32 reduces_S16384x128_S128 (.inl rfl) rfl))
    shapeCasts_S128_S1x128

/-- A sums' row after a point: the old row plus the column sums of mask times term. -/
def rowSum (kw : BitVec 32) (v16 : IVec S16384x128 32) (v26 : FVec Ideal S16384x128 .f32)
    (old : Vec Ideal S1x128 .f32) : FVec Ideal S1x128 .f32 :=
  shapeCast S1x128 (addf (shapeCast S128 old shapeCasts_S1x128_S128)
    (multiReduction .add [0] S128 (mulf (maskOf kw v16) v26) 0x00000000#32 reduces_S16384x128_S128 (.inl rfl) rfl))
    shapeCasts_S128_S1x128

theorem lift_eq (l : Fin 128) (r : Fin 16384) :
    reduces_S16384x128_S128.lift (ix1 l : S128.Idx) r = (ix2 r l : S16384x128.Idx) := by
  funext a
  match a with
  | ⟨0, _⟩ => rfl
  | ⟨1, _⟩ => rfl

/-- A block's column sum at lane `l`: the sum over its 16384 rows. -/
theorem colSum (src : FVec Ideal S16384x128 .f32) (hφ : FKind.Formats .f32)
    (hacc : (0x00000000#32 : BitVec 32) = 0x00000000#32) (l : Fin 128) :
    multiReduction .add [0] S128 src 0x00000000#32 reduces_S16384x128_S128 hφ hacc (ix1 l)
      = ∑ r : Fin 16384, src (ix2 r l) := by
  refine (Ideal.multiReduction_add_single src 0x00000000#32 reduces_S16384x128_S128 hφ hacc (ix1 l)).trans ?_
  exact Finset.sum_congr rfl fun r _ => congrArg src (lift_eq l r)

theorem maskOf_apply (kw : BitVec 32) (v16 : IVec S16384x128 32) (j : S16384x128.Idx) :
    maskOf kw v16 j = Cert.Ghm.ind (v16 j) kw := rfl

/-- A counts' row at lane `l`: the old entry plus the number of the lane's elements in the bin. -/
theorem rowCnt_apply (kw : BitVec 32) (v16 : IVec S16384x128 32) (old : Vec Ideal S1x128 .f32) (l : Fin 128) :
    rowCnt kw v16 old (ix2 (0 : Fin 1) l)
      = old (ix2 (0 : Fin 1) l) + ∑ r : Fin 16384, Cert.Ghm.ind (v16 (ix2 r l)) kw := by
  unfold rowCnt
  rw [shapeCast_a_1a_apply, addf_apply, shapeCast_1a_a_apply, colSum]
  rfl

/-- A sums' row at lane `l`: the old entry plus the sum of the terms of the lane's elements in the bin. -/
theorem rowSum_apply (kw : BitVec 32) (v16 : IVec S16384x128 32) (v26 : FVec Ideal S16384x128 .f32)
    (old : Vec Ideal S1x128 .f32) (l : Fin 128) :
    rowSum kw v16 v26 old (ix2 (0 : Fin 1) l)
      = old (ix2 (0 : Fin 1) l) + ∑ r : Fin 16384, Cert.Ghm.ind (v16 (ix2 r l)) kw * v26 (ix2 r l) := by
  unfold rowSum
  rw [shapeCast_a_1a_apply, addf_apply, shapeCast_1a_a_apply, colSum]
  rfl

/-! The body's spellings of the twenty row updates. -/
section Spellings
variable (x0 : Vec Ideal S16384x128 .f32) (x1 : Vec Ideal S16384x128 .bf16) (v16 : IVec S16384x128 32)
  (v26 : FVec Ideal S16384x128 .f32) (old : Vec Ideal S1x128 .f32)

theorem cnt0 : k0_pay10 (F := Ideal) x0 x1 old = rowCnt 0#32 (k0_pay7 x0 x1) old := rfl
theorem cnt1 : k0_pay13 (F := Ideal) v16 old = rowCnt 1#32 v16 old := rfl
theorem cnt2 : k0_pay17 (F := Ideal) (k0_pay16 v16 old) = rowCnt 2#32 v16 old := rfl
theorem cnt3 : k0_pay20 (F := Ideal) v16 old = rowCnt 3#32 v16 old := rfl
theorem cnt4 : k0_pay24 (F := Ideal) (k0_pay23 v16 old) = rowCnt 4#32 v16 old := rfl
theorem cnt5 : k0_pay27 (F := Ideal) v16 old = rowCnt 5#32 v16 old := rfl
theorem cnt6 : k0_pay30 (F := Ideal) (k0_pay29 v16) old = rowCnt 6#32 v16 old := rfl
theorem cnt7 : k0_pay33 (F := Ideal) v16 old = rowCnt 7#32 v16 old := rfl
theorem cnt8 : k0_pay37 (F := Ideal) (k0_pay35 v16) old = rowCnt 8#32 v16 old := rfl
theorem cnt9 : k0_pay40 (F := Ideal) v16 old = rowCnt 9#32 v16 old := rfl

theorem sum0 : k0_pay11 (F := Ideal) (k0_pay8 x0 x1) (k0_pay9 x0 x1) old = rowSum 0#32 (k0_pay7 x0 x1) (k0_pay8 x0 x1) old := rfl
theorem sum1 : k0_pay14 (F := Ideal) v16 v26 old = rowSum 1#32 v16 v26 old := rfl
theorem sum2 : k0_pay18 (F := Ideal) v26 (k0_pay15 v16) old = rowSum 2#32 v16 v26 old := rfl
theorem sum3 : k0_pay21 (F := Ideal) v16 v26 old = rowSum 3#32 v16 v26 old := rfl
theorem sum4 : k0_pay25 (F := Ideal) v26 (k0_pay22 v16) old = rowSum 4#32 v16 v26 old := rfl
theorem sum5 : k0_pay28 (F := Ideal) v16 v26 old = rowSum 5#32 v16 v26 old := rfl
theorem sum6 : k0_pay31 (F := Ideal) v26 (k0_pay29 v16) old = rowSum 6#32 v16 v26 old := rfl
theorem sum7 : k0_pay34 (F := Ideal) v16 v26 old = rowSum 7#32 v16 v26 old := rfl
theorem sum8 : k0_pay38 (F := Ideal) v26 (k0_pay35 v16) old = rowSum 8#32 v16 v26 old := rfl
theorem sum9 : k0_pay41 (F := Ideal) v16 v26 old = rowSum 9#32 v16 v26 old := rfl
end Spellings

/-- The bin word of a block's element, and its term, are the element's own. -/
theorem bin_apply (x0 : Vec Ideal S16384x128 .f32) (x1 : Vec Ideal S16384x128 .bf16) (j : S16384x128.Idx) :
    k0_pay7 (F := Ideal) x0 x1 j = Cert.Ghm.bin (x0 j) (x1 j) := by
  unfold k0_pay7 k0_pay5 k0_pay6
  simp only [shapeCast_self]
  rfl

theorem term_apply (x0 : Vec Ideal S16384x128 .f32) (x1 : Vec Ideal S16384x128 .bf16) (j : S16384x128.Idx) :
    k0_pay8 (F := Ideal) x0 x1 j = Cert.Ghm.bce (x0 j) (x1 j) := by
  unfold k0_pay8 k0_pay5 k0_pay6
  simp only [shapeCast_self]
  exact Cert.Ghm.bce_eq (x0 j) (x1 j)

end Cert.KernelIdeal.Rows

end
-- ==== Proof.KernelCaseA.lean ====
/-
  The first grid point of a core: both accumulators are stored whole with zeros, and then each of the ten rows
  gains its block's column sums. Read at row `k < 10`, lane `l`: zero plus the column sum.

  The body leaves, for an accumulator, the ten one-row stores (rows 9 down to 0, newest first) on top of the
  whole-buffer store of zeros. Row `n`'s payload adds the column sums to a load of row `n` as the stores before
  it left it: rows 0 to `n - 1` and the zeros, of which only the zeros lie over row `n`.
-/
import proofs.«171834_j35974646072039_2_alg».proof.Proof.Gen.KernelIdeal.Frame
import proofs.«171834_j35974646072039_2_alg».proof.Proof.KernelRows
import Idealize.ShloMosaic.Lib.Pipeline.Value
import Idealize.ShloMosaic.Lib.Tactic
import Idealize.ShloMosaic.Lib.WritesUnit

set_option maxRecDepth 16384

noncomputable section

namespace Cert.KernelIdeal.CaseA

open Idealize.ShloMosaic Idealize.ShloMosaic.TcCoe Idealize.SL.Sem Idealize.ShloMosaic.ValueIdx
open Cert.KernelIdeal Cert.KernelIdeal.Gen Cert.KernelIdeal.Rows

theorem hz2 : (![0, 0] : Fin 2 → Nat) = fun _ => 0 := funext fun a => by fin_cases a <;> rfl

/-- A load through a box of what a list of stores left, at a position: the stores read over junk at the
    box's index. -/
theorem readCov_apply {s : Shape} {e : EltTy} {sp : Space} (v : View sig .tc sp s e) (L : List (View.Piece (Elt Ideal) s e))
    (B : LoadRect s) (j : B.shape.Idx) :
    v.readCov L B j = v.read (Elt Ideal) (v.writes (Elt Ideal) v.junk L) (B.idx j) := by
  rw [View.readCov_eq_canon']
  exact (View.read_writes_junk_apply_eq_canon v (B.idx j) L).symm

/-- The zeros the point begins with, at an entry. -/
theorem zeros_cnt (y : S16x128.Idx) : k0_pay3 (F := Ideal) y = Cert.Ghm.zero := by
  unfold k0_pay3
  simp only [shapeCast_self]
  rfl

theorem zeros_sum (y : S16x128.Idx) : k0_pay4 (F := Ideal) y = Cert.Ghm.zero := by
  unfold k0_pay4
  simp only [shapeCast_self]
  rfl

set_option hygiene false in
/-- Read a list of one-row stores (rows 9 down to 0, over older stores) at row `n`, lane `l`: pass the `m = 9 - n`
    stores of later rows and take row `n`'s payload at lane `l`. -/
local macro "take_row" n:num m:num : tactic => `(tactic| (
  iterate $m rw [View.read_writes_cons_rows_of_not_mem (W := 1) _ _ _ _ _ _ rfl rfl (by simp [ix2])]
  rw [View.read_writes_cons_rows_of_mem (off := ![$n, 0]) (size := ![1, 128]) (o := $n) _ _ _ _ _
    (ix2 (⟨$n, by omega⟩ : Fin 16) l) (ix2 (0 : Fin 1) l) rfl rfl rfl]))

set_option hygiene false in
/-- The load of row `n` before its store reads the zeros: the `n` stores of rows below it miss row `n`, the
    whole-buffer store holds it. -/
local macro "old_zero" n:num : tactic => `(tactic| (
  rw [readCov_apply]
  iterate $n rw [View.read_writes_cons_unit_of_not_mem _ _ _ _ _ _ rfl (0 : Fin 2) (by simp [ix2])]
  rw [View.read_writes_cons_unit_of_mem (off := ![0, 0]) (size := S16x128.size) _ _ _ _ _ _
    (ix2 (⟨$n, by omega⟩ : Fin 16) l) rfl (fun a => by fin_cases a <;> simp [ix2])]))

set_option hygiene false in
/-- Row `n` of the counts: `rowCnt` over the zeros. -/
local macro "cnt_row" n:num m:num : tactic => `(tactic| (
  take_row $n $m
  simp only [View.readAt_eq_ld, harg2.read_unread, harg3.read_unread,
    View.ld_unit_zero (S := S16384x128) hz2, cnt0, cnt1, cnt2, cnt3, cnt4, cnt5, cnt6, cnt7, cnt8, cnt9]
  rw [rowCnt_apply]
  congr 1
  old_zero $n
  exact zeros_cnt _))

set_option hygiene false in
/-- Row `n` of the sums: `rowSum` over the zeros. -/
local macro "sum_row" n:num m:num : tactic => `(tactic| (
  take_row $n $m
  simp only [View.readAt_eq_ld, harg2.read_unread, harg3.read_unread,
    View.ld_unit_zero (S := S16384x128) hz2, sum0, sum1, sum2, sum3, sum4, sum5, sum6, sum7, sum8, sum9]
  rw [rowSum_apply]
  congr 1
  old_zero $n
  exact zeros_sum _))

/-- The counts after a core's first point: zero plus the number of the lane's elements in bin `k`. -/
theorem cnt_apply (c : Dev nD) (i : grid0.Coords) (arg2 : Memref sig .tc .vmem S16384x128 .f32) (harg2 : arg2.IsWhole) (arg3 : Memref sig .tc .vmem S16384x128 .bf16) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S16x128 .f32) (harg6 : arg6.IsWhole) (arg7 : Memref sig .tc .vmem S16x128 .f32) (harg7 : arg7.IsWhole) (hc0 : cond0_0 i) (hc1 : ¬cond0_1 i)
    (x0 : Vec Ideal S16384x128 .f32) (x1 : Vec Ideal S16384x128 .bf16)
    (k : Fin 16) (hk : k.val < 10) (l : Fin 128) :
    sout0_A_0 (F := Ideal) c i arg2 harg2 arg3 harg3 arg4 harg4 arg5 harg5 arg6 harg6 arg7 harg7 hc0 hc1 x0 x1 (ix2 k l)
      = Cert.Ghm.zero + ∑ r : Fin 16384, Cert.Ghm.ind (k0_pay7 x0 x1 (ix2 r l)) (BitVec.ofNat 32 k.val) := by
  unfold sout0_A_0 kernelRun0_A
  dsimp only
  sl_unfold_words
  match k, hk with
  | ⟨0, _⟩, _ => cnt_row 0 9
  | ⟨1, _⟩, _ => cnt_row 1 8
  | ⟨2, _⟩, _ => cnt_row 2 7
  | ⟨3, _⟩, _ => cnt_row 3 6
  | ⟨4, _⟩, _ => cnt_row 4 5
  | ⟨5, _⟩, _ => cnt_row 5 4
  | ⟨6, _⟩, _ => cnt_row 6 3
  | ⟨7, _⟩, _ => cnt_row 7 2
  | ⟨8, _⟩, _ => cnt_row 8 1
  | ⟨9, _⟩, _ => cnt_row 9 0
  | ⟨n + 10, _⟩, h => exact absurd h (by simp)

/-- The sums after a core's first point: zero plus the terms of the lane's elements in bin `k`. -/
theorem sum_apply (c : Dev nD) (i : grid0.Coords) (arg2 : Memref sig .tc .vmem S16384x128 .f32) (harg2 : arg2.IsWhole) (arg3 : Memref sig .tc .vmem S16384x128 .bf16) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S16x128 .f32) (harg6 : arg6.IsWhole) (arg7 : Memref sig .tc .vmem S16x128 .f32) (harg7 : arg7.IsWhole) (hc0 : cond0_0 i) (hc1 : ¬cond0_1 i)
    (x0 : Vec Ideal S16384x128 .f32) (x1 : Vec Ideal S16384x128 .bf16)
    (k : Fin 16) (hk : k.val < 10) (l : Fin 128) :
    sout0_A_1 (F := Ideal) c i arg2 harg2 arg3 harg3 arg4 harg4 arg5 harg5 arg6 harg6 arg7 harg7 hc0 hc1 x0 x1 (ix2 k l)
      = Cert.Ghm.zero + ∑ r : Fin 16384,
          Cert.Ghm.ind (k0_pay7 x0 x1 (ix2 r l)) (BitVec.ofNat 32 k.val) * k0_pay8 x0 x1 (ix2 r l) := by
  unfold sout0_A_1 kernelRun0_A
  dsimp only
  sl_unfold_words
  match k, hk with
  | ⟨0, _⟩, _ => sum_row 0 9
  | ⟨1, _⟩, _ => sum_row 1 8
  | ⟨2, _⟩, _ => sum_row 2 7
  | ⟨3, _⟩, _ => sum_row 3 6
  | ⟨4, _⟩, _ => sum_row 4 5
  | ⟨5, _⟩, _ => sum_row 5 4
  | ⟨6, _⟩, _ => sum_row 6 3
  | ⟨7, _⟩, _ => sum_row 7 2
  | ⟨8, _⟩, _ => sum_row 8 1
  | ⟨9, _⟩, _ => sum_row 9 0
  | ⟨n + 10, _⟩, h => exact absurd h (by simp)

end Cert.KernelIdeal.CaseA

end
-- ==== Proof.KernelCaseB.lean ====
/-
  A middle grid point of a core (neither its first nor its last): each of the ten rows of the two accumulators
  gains its block's column sums; nothing else is stored. Read at row `k < 10`, lane `l`.

  The body leaves, for an accumulator, ten stores of one row each (rows 9 down to 0, newest first). An entry of
  row `n` lies under none of the later rows' stores and under row `n`'s own, whose payload is the row as it
  was before the point plus the block's column sums for bin `n`.
-/
import proofs.«171834_j35974646072039_2_alg».proof.Proof.Gen.KernelIdeal.Frame
import proofs.«171834_j35974646072039_2_alg».proof.Proof.KernelRows
import Idealize.ShloMosaic.Lib.Pipeline.Value
import Idealize.ShloMosaic.Lib.Tactic
import Idealize.ShloMosaic.Lib.WritesUnit

set_option maxRecDepth 16384

noncomputable section

namespace Cert.KernelIdeal.CaseB

open Idealize.ShloMosaic Idealize.ShloMosaic.TcCoe Idealize.SL.Sem Idealize.ShloMosaic.ValueIdx
open Cert.KernelIdeal Cert.KernelIdeal.Gen Cert.KernelIdeal.Rows

theorem hz2 : (![0, 0] : Fin 2 → Nat) = fun _ => 0 := funext fun a => by fin_cases a <;> rfl

/-- A load of row `n` of an accumulator, at lane `l`, is the accumulator's entry `(n, l)`. -/
theorem ld_row (xs : Vec Ideal S16x128 .f32) (n : ℕ) (inb : ∀ a, (![n, 0] : Fin 2 → ℕ) a + S1x128.size a ≤ S16x128.size a)
    (k : Fin 16) (hk : k.val = n) (l : Fin 128) :
    View.ld xs (Rect.unit ![n, 0] S1x128.size inb) (ix2 (0 : Fin 1) l) = xs (ix2 k l) := by
  show xs _ = xs _
  congr 1
  funext a
  apply Fin.ext
  match a with
  | ⟨0, _⟩ => show n + 1 * 0 = k.val; omega
  | ⟨1, _⟩ => show 0 + 1 * l.val = l.val; omega

set_option hygiene false in
/-- Read a list of one-row stores (rows 9 down to 0) at row `n`, lane `l`: pass the `m = 9 - n` stores of later
    rows, take row `n`'s payload at lane `l`, and open the names the run gave its intermediate values. -/
local macro "take_row" n:num m:num : tactic => `(tactic| (
  iterate $m rw [View.read_writes_cons_rows_of_not_mem (W := 1) _ _ _ _ _ _ rfl rfl (by simp [ix2])]
  rw [View.read_writes_cons_rows_of_mem (off := ![$n, 0]) (size := ![1, 128]) (o := $n) _ _ _ _ _
    (ix2 (⟨$n, by omega⟩ : Fin 16) l) (ix2 (0 : Fin 1) l) rfl rfl rfl]
  sl_unfold_words))

set_option hygiene false in
/-- Row `n` of the counts: the payload is `rowCnt`, whose old row is a load of row `n` of the contents before. -/
local macro "cnt_row" n:num m:num : tactic => `(tactic| (
  take_row $n $m
  simp only [View.readAt_eq_ld, harg2.read_unread, harg3.read_unread, harg6.read_unread,
    View.ld_unit_zero (S := S16384x128) hz2, cnt0, cnt1, cnt2, cnt3, cnt4, cnt5, cnt6, cnt7, cnt8, cnt9]
  rw [rowCnt_apply, ld_row _ $n _ (⟨$n, by omega⟩ : Fin 16) rfl l]))

set_option hygiene false in
/-- Row `n` of the sums, likewise with `rowSum`. -/
local macro "sum_row" n:num m:num : tactic => `(tactic| (
  take_row $n $m
  simp only [View.readAt_eq_ld, harg2.read_unread, harg3.read_unread, harg7.read_unread,
    View.ld_unit_zero (S := S16384x128) hz2, sum0, sum1, sum2, sum3, sum4, sum5, sum6, sum7, sum8, sum9]
  rw [rowSum_apply, ld_row _ $n _ (⟨$n, by omega⟩ : Fin 16) rfl l]))

/-- The counts after a middle point: the entry before plus the number of the lane's elements in bin `k`. -/
theorem cnt_apply (c : Dev nD) (i : grid0.Coords) (arg2 : Memref sig .tc .vmem S16384x128 .f32) (harg2 : arg2.IsWhole) (arg3 : Memref sig .tc .vmem S16384x128 .bf16) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S16x128 .f32) (harg6 : arg6.IsWhole) (arg7 : Memref sig .tc .vmem S16x128 .f32) (harg7 : arg7.IsWhole) (hc0 : ¬cond0_0 i) (hc1 : ¬cond0_1 i)
    (x0 : Vec Ideal S16384x128 .f32) (x1 : Vec Ideal S16384x128 .bf16) (xs0 xs1 : Vec Ideal S16x128 .f32)
    (k : Fin 16) (hk : k.val < 10) (l : Fin 128) :
    sout0_B_0 (F := Ideal) c i arg2 harg2 arg3 harg3 arg4 harg4 arg5 harg5 arg6 harg6 arg7 harg7 hc0 hc1 x0 x1 xs0 xs1 (ix2 k l)
      = xs0 (ix2 k l) + ∑ r : Fin 16384, Cert.Ghm.ind (k0_pay7 x0 x1 (ix2 r l)) (BitVec.ofNat 32 k.val) := by
  unfold sout0_B_0 kernelRun0_B
  dsimp only
  match k, hk with
  | ⟨0, _⟩, _ => cnt_row 0 9
  | ⟨1, _⟩, _ => cnt_row 1 8
  | ⟨2, _⟩, _ => cnt_row 2 7
  | ⟨3, _⟩, _ => cnt_row 3 6
  | ⟨4, _⟩, _ => cnt_row 4 5
  | ⟨5, _⟩, _ => cnt_row 5 4
  | ⟨6, _⟩, _ => cnt_row 6 3
  | ⟨7, _⟩, _ => cnt_row 7 2
  | ⟨8, _⟩, _ => cnt_row 8 1
  | ⟨9, _⟩, _ => cnt_row 9 0
  | ⟨n + 10, _⟩, h => exact absurd h (by simp)

/-- The sums after a middle point: the entry before plus the terms of the lane's elements in bin `k`. -/
theorem sum_apply (c : Dev nD) (i : grid0.Coords) (arg2 : Memref sig .tc .vmem S16384x128 .f32) (harg2 : arg2.IsWhole) (arg3 : Memref sig .tc .vmem S16384x128 .bf16) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S16x128 .f32) (harg6 : arg6.IsWhole) (arg7 : Memref sig .tc .vmem S16x128 .f32) (harg7 : arg7.IsWhole) (hc0 : ¬cond0_0 i) (hc1 : ¬cond0_1 i)
    (x0 : Vec Ideal S16384x128 .f32) (x1 : Vec Ideal S16384x128 .bf16) (xs0 xs1 : Vec Ideal S16x128 .f32)
    (k : Fin 16) (hk : k.val < 10) (l : Fin 128) :
    sout0_B_1 (F := Ideal) c i arg2 harg2 arg3 harg3 arg4 harg4 arg5 harg5 arg6 harg6 arg7 harg7 hc0 hc1 x0 x1 xs0 xs1 (ix2 k l)
      = xs1 (ix2 k l) + ∑ r : Fin 16384,
          Cert.Ghm.ind (k0_pay7 x0 x1 (ix2 r l)) (BitVec.ofNat 32 k.val) * k0_pay8 x0 x1 (ix2 r l) := by
  unfold sout0_B_1 kernelRun0_B
  dsimp only
  match k, hk with
  | ⟨0, _⟩, _ => sum_row 0 9
  | ⟨1, _⟩, _ => sum_row 1 8
  | ⟨2, _⟩, _ => sum_row 2 7
  | ⟨3, _⟩, _ => sum_row 3 6
  | ⟨4, _⟩, _ => sum_row 4 5
  | ⟨5, _⟩, _ => sum_row 5 4
  | ⟨6, _⟩, _ => sum_row 6 3
  | ⟨7, _⟩, _ => sum_row 7 2
  | ⟨8, _⟩, _ => sum_row 8 1
  | ⟨9, _⟩, _ => sum_row 9 0
  | ⟨n + 10, _⟩, h => exact absurd h (by simp)

end Cert.KernelIdeal.CaseB

end
-- ==== Proof.KernelCaseC.lean ====
/-
  The last grid point of a core: each of the ten rows of the two accumulators gains its block's column sums, and
  then each accumulator is copied whole into its output block. Read at row `k < 10`, lane `l`.

  For an accumulator the body leaves the ten one-row stores (rows 9 down to 0, newest first), as at a middle
  point. For an output it leaves one store of the whole block, whose payload is a load of the whole accumulator
  after its row stores, with a leading unit axis added.
-/
import proofs.«171834_j35974646072039_2_alg».proof.Proof.Gen.KernelIdeal.Frame
import proofs.«171834_j35974646072039_2_alg».proof.Proof.KernelRows
import Idealize.ShloMosaic.Lib.Pipeline.Value
import Idealize.ShloMosaic.Lib.Tactic
import Idealize.ShloMosaic.Lib.WritesUnit

set_option maxRecDepth 16384

noncomputable section

namespace Cert.KernelIdeal.CaseC

open Idealize.ShloMosaic Idealize.ShloMosaic.TcCoe Idealize.SL.Sem Idealize.ShloMosaic.ValueIdx
open Cert.KernelIdeal Cert.KernelIdeal.Gen Cert.KernelIdeal.Rows

theorem hz2 : (![0, 0] : Fin 2 → Nat) = fun _ => 0 := funext fun a => by fin_cases a <;> rfl

/-- A load of row `n` of an accumulator, at lane `l`, is the accumulator's entry `(n, l)`. -/
theorem ld_row (xs : Vec Ideal S16x128 .f32) (n : ℕ) (inb : ∀ a, (![n, 0] : Fin 2 → ℕ) a + S1x128.size a ≤ S16x128.size a)
    (k : Fin 16) (hk : k.val = n) (l : Fin 128) :
    View.ld xs (Rect.unit ![n, 0] S1x128.size inb) (ix2 (0 : Fin 1) l) = xs (ix2 k l) := by
  show xs _ = xs _
  congr 1
  funext a
  apply Fin.ext
  match a with
  | ⟨0, _⟩ => show n + 1 * 0 = k.val; omega
  | ⟨1, _⟩ => show 0 + 1 * l.val = l.val; omega

set_option hygiene false in
/-- Read a list of one-row stores (rows 9 down to 0) at row `n`, lane `l`: pass the `m = 9 - n` stores of later
    rows and take row `n`'s payload at lane `l`. -/
local macro "take_row" n:num m:num : tactic => `(tactic| (
  iterate $m rw [View.read_writes_cons_rows_of_not_mem (W := 1) _ _ _ _ _ _ rfl rfl (by simp [ix2])]
  rw [View.read_writes_cons_rows_of_mem (off := ![$n, 0]) (size := ![1, 128]) (o := $n) _ _ _ _ _
    (ix2 (⟨$n, by omega⟩ : Fin 16) l) (ix2 (0 : Fin 1) l) rfl rfl rfl]))

set_option hygiene false in
/-- Row `n` of the counts: the payload is `rowCnt`, whose old row is a load of row `n` of the contents before. -/
local macro "cnt_row" n:num m:num : tactic => `(tactic| (
  take_row $n $m
  simp only [View.readAt_eq_ld, harg2.read_unread, harg3.read_unread, harg6.read_unread,
    View.ld_unit_zero (S := S16384x128) hz2, cnt0, cnt1, cnt2, cnt3, cnt4, cnt5, cnt6, cnt7, cnt8, cnt9]
  rw [rowCnt_apply, ld_row _ $n _ (⟨$n, by omega⟩ : Fin 16) rfl l]))

set_option hygiene false in
/-- Row `n` of the sums, likewise with `rowSum`. -/
local macro "sum_row" n:num m:num : tactic => `(tactic| (
  take_row $n $m
  simp only [View.readAt_eq_ld, harg2.read_unread, harg3.read_unread, harg7.read_unread,
    View.ld_unit_zero (S := S16384x128) hz2, sum0, sum1, sum2, sum3, sum4, sum5, sum6, sum7, sum8, sum9]
  rw [rowSum_apply, ld_row _ $n _ (⟨$n, by omega⟩ : Fin 16) rfl l]))

/-- The counts after a core's last point: the entry before plus the number of the lane's elements in bin `k`. -/
theorem cnt_apply (c : Dev nD) (i : grid0.Coords) (arg2 : Memref sig .tc .vmem S16384x128 .f32) (harg2 : arg2.IsWhole) (arg3 : Memref sig .tc .vmem S16384x128 .bf16) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S16x128 .f32) (harg6 : arg6.IsWhole) (arg7 : Memref sig .tc .vmem S16x128 .f32) (harg7 : arg7.IsWhole) (hc0 : ¬cond0_0 i) (hc1 : cond0_1 i)
    (x0 : Vec Ideal S16384x128 .f32) (x1 : Vec Ideal S16384x128 .bf16) (xs0 xs1 : Vec Ideal S16x128 .f32)
    (k : Fin 16) (hk : k.val < 10) (l : Fin 128) :
    sout0_C_0 (F := Ideal) c i arg2 harg2 arg3 harg3 arg4 harg4 arg5 harg5 arg6 harg6 arg7 harg7 hc0 hc1 x0 x1 xs0 xs1 (ix2 k l)
      = xs0 (ix2 k l) + ∑ r : Fin 16384, Cert.Ghm.ind (k0_pay7 x0 x1 (ix2 r l)) (BitVec.ofNat 32 k.val) := by
  unfold sout0_C_0 kernelRun0_C
  dsimp only
  sl_unfold_words
  match k, hk with
  | ⟨0, _⟩, _ => cnt_row 0 9
  | ⟨1, _⟩, _ => cnt_row 1 8
  | ⟨2, _⟩, _ => cnt_row 2 7
  | ⟨3, _⟩, _ => cnt_row 3 6
  | ⟨4, _⟩, _ => cnt_row 4 5
  | ⟨5, _⟩, _ => cnt_row 5 4
  | ⟨6, _⟩, _ => cnt_row 6 3
  | ⟨7, _⟩, _ => cnt_row 7 2
  | ⟨8, _⟩, _ => cnt_row 8 1
  | ⟨9, _⟩, _ => cnt_row 9 0
  | ⟨n + 10, _⟩, h => exact absurd h (by simp)

/-- The sums after a core's last point: the entry before plus the terms of the lane's elements in bin `k`. -/
theorem sum_apply (c : Dev nD) (i : grid0.Coords) (arg2 : Memref sig .tc .vmem S16384x128 .f32) (harg2 : arg2.IsWhole) (arg3 : Memref sig .tc .vmem S16384x128 .bf16) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S16x128 .f32) (harg6 : arg6.IsWhole) (arg7 : Memref sig .tc .vmem S16x128 .f32) (harg7 : arg7.IsWhole) (hc0 : ¬cond0_0 i) (hc1 : cond0_1 i)
    (x0 : Vec Ideal S16384x128 .f32) (x1 : Vec Ideal S16384x128 .bf16) (xs0 xs1 : Vec Ideal S16x128 .f32)
    (k : Fin 16) (hk : k.val < 10) (l : Fin 128) :
    sout0_C_1 (F := Ideal) c i arg2 harg2 arg3 harg3 arg4 harg4 arg5 harg5 arg6 harg6 arg7 harg7 hc0 hc1 x0 x1 xs0 xs1 (ix2 k l)
      = xs1 (ix2 k l) + ∑ r : Fin 16384,
          Cert.Ghm.ind (k0_pay7 x0 x1 (ix2 r l)) (BitVec.ofNat 32 k.val) * k0_pay8 x0 x1 (ix2 r l) := by
  unfold sout0_C_1 kernelRun0_C
  dsimp only
  sl_unfold_words
  match k, hk with
  | ⟨0, _⟩, _ => sum_row 0 9
  | ⟨1, _⟩, _ => sum_row 1 8
  | ⟨2, _⟩, _ => sum_row 2 7
  | ⟨3, _⟩, _ => sum_row 3 6
  | ⟨4, _⟩, _ => sum_row 4 5
  | ⟨5, _⟩, _ => sum_row 5 4
  | ⟨6, _⟩, _ => sum_row 6 3
  | ⟨7, _⟩, _ => sum_row 7 2
  | ⟨8, _⟩, _ => sum_row 8 1
  | ⟨9, _⟩, _ => sum_row 9 0
  | ⟨n + 10, _⟩, h => exact absurd h (by simp)

theorem hz3 : (![0, 0, 0] : Fin 3 → Nat) = fun _ => 0 := funext fun a => by fin_cases a <;> rfl

/-- The counts' output block after a core's last point is the counts' accumulator as the point leaves it. -/
theorem out_cnt_apply (c : Dev nD) (i : grid0.Coords) (arg2 : Memref sig .tc .vmem S16384x128 .f32) (harg2 : arg2.IsWhole) (arg3 : Memref sig .tc .vmem S16384x128 .bf16) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S16x128 .f32) (harg6 : arg6.IsWhole) (arg7 : Memref sig .tc .vmem S16x128 .f32) (harg7 : arg7.IsWhole) (hc0 : ¬cond0_0 i) (hc1 : cond0_1 i)
    (x0 : Vec Ideal S16384x128 .f32) (x1 : Vec Ideal S16384x128 .bf16) (xs0 xs1 : Vec Ideal S16x128 .f32)
    (k : Fin 16) (l : Fin 128) :
    out0_C_2 (F := Ideal) c i arg2 harg2 arg3 harg3 arg4 harg4 arg5 harg5 arg6 harg6 arg7 harg7 hc0 hc1 x0 x1 xs0 xs1 (ix3 (0 : Fin 1) k l)
      = sout0_C_0 (F := Ideal) c i arg2 harg2 arg3 harg3 arg4 harg4 arg5 harg5 arg6 harg6 arg7 harg7 hc0 hc1 x0 x1 xs0 xs1 (ix2 k l) := by
  unfold out0_C_2 sout0_C_0
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero hz3]
  unfold k0_pay1
  rw [shapeCast_ab_1ab_apply]
  exact congrFun (View.ld_unit_zero (S := S16x128) hz2 _ _) (ix2 k l)

/-- The sums' output block after a core's last point is the sums' accumulator as the point leaves it. -/
theorem out_sum_apply (c : Dev nD) (i : grid0.Coords) (arg2 : Memref sig .tc .vmem S16384x128 .f32) (harg2 : arg2.IsWhole) (arg3 : Memref sig .tc .vmem S16384x128 .bf16) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S16x128 .f32) (harg6 : arg6.IsWhole) (arg7 : Memref sig .tc .vmem S16x128 .f32) (harg7 : arg7.IsWhole) (hc0 : ¬cond0_0 i) (hc1 : cond0_1 i)
    (x0 : Vec Ideal S16384x128 .f32) (x1 : Vec Ideal S16384x128 .bf16) (xs0 xs1 : Vec Ideal S16x128 .f32)
    (k : Fin 16) (l : Fin 128) :
    out0_C_3 (F := Ideal) c i arg2 harg2 arg3 harg3 arg4 harg4 arg5 harg5 arg6 harg6 arg7 harg7 hc0 hc1 x0 x1 xs0 xs1 (ix3 (0 : Fin 1) k l)
      = sout0_C_1 (F := Ideal) c i arg2 harg2 arg3 harg3 arg4 harg4 arg5 harg5 arg6 harg6 arg7 harg7 hc0 hc1 x0 x1 xs0 xs1 (ix2 k l) := by
  unfold out0_C_3 sout0_C_1
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero hz3]
  unfold k0_pay2
  rw [shapeCast_ab_1ab_apply]
  exact congrFun (View.ld_unit_zero (S := S16x128) hz2 _ _) (ix2 k l)

end Cert.KernelIdeal.CaseC

end
-- ==== Proof.KernelChain.lean ====
/-
  One core's three grid points, composed: what the core's output blocks hold after its last point.

  The first point of a core zeroes the accumulators and adds its block's column sums (case A), the middle point adds
  its block's (case B), the last adds its block's and copies the accumulators into the output blocks (case C). So
  row `k < 10`, lane `l` of the counts' output block is `((0 + s₀) + s₁) + s₂` with `sᵢ` the number of lane
  `l`'s elements of the core's `i`-th block that fall in bin `k`; and the sums' block likewise with the terms.
-/
import proofs.«171834_j35974646072039_2_alg».proof.Proof.KernelCaseA
import proofs.«171834_j35974646072039_2_alg».proof.Proof.KernelCaseB
import proofs.«171834_j35974646072039_2_alg».proof.Proof.KernelCaseC

set_option maxRecDepth 16384

noncomputable section

namespace Cert.KernelIdeal.Chain

open Idealize.ShloMosaic Idealize.ShloMosaic.TcCoe Idealize.SL.Sem Idealize.ShloMosaic.ValueIdx
open Cert.KernelIdeal Cert.KernelIdeal.Gen Cert.KernelIdeal.Rows

variable (m : (ℓ : Loc nD τ sig) → Buf (Elt Ideal) ℓ)

/-- A block's lane `l`: the number of its elements in bin `k`, and the sum of their terms. -/
def colCnt (x0 : Vec Ideal S16384x128 .f32) (x1 : Vec Ideal S16384x128 .bf16) (k : Fin 16) (l : Fin 128) : EReal :=
  ∑ r : Fin 16384, Cert.Ghm.ind (k0_pay7 x0 x1 (ix2 r l)) (BitVec.ofNat 32 k.val)

def colSum (x0 : Vec Ideal S16384x128 .f32) (x1 : Vec Ideal S16384x128 .bf16) (k : Fin 16) (l : Fin 128) : EReal :=
  ∑ r : Fin 16384, Cert.Ghm.ind (k0_pay7 x0 x1 (ix2 r l)) (BitVec.ofNat 32 k.val) * k0_pay8 x0 x1 (ix2 r l)

/-- The contents after a point depend on the point's position only. -/
theorem outsAt0_eq_of_val (c : Dev nD) (n : ℕ) (hn : n < cfg0.N) (t : Fin cfg0.N) (h : n = t.val) :
    outsAt0 (F := Ideal) m c n hn = outsAt0 m c t.val t.isLt := by
  subst h; rfl

section Steps
variable (c : Dev nD) (t : Fin cfg0.N) (k : Fin 16) (l : Fin 128)

/-- A core's first point: the accumulators from zero. -/
theorem stepA_cnt (hk : k.val < 10) (h0 : t.val % 3 = 0) (h1 : ¬t.val % 3 = 2) :
    (outsAt0 (F := Ideal) m c t.val t.isLt).2.2.1 (ix2 k l)
      = Cert.Ghm.zero + colCnt (iblk m c 0 t) (iblk m c 1 t) k l := by
  rw [outsAt0_A m c t h0 h1]
  exact CaseA.cnt_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) k hk l

theorem stepA_sum (hk : k.val < 10) (h0 : t.val % 3 = 0) (h1 : ¬t.val % 3 = 2) :
    (outsAt0 (F := Ideal) m c t.val t.isLt).2.2.2 (ix2 k l)
      = Cert.Ghm.zero + colSum (iblk m c 0 t) (iblk m c 1 t) k l := by
  rw [outsAt0_A m c t h0 h1]
  exact CaseA.sum_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) k hk l

/-- A core's middle point: the accumulators from the point before. -/
theorem stepB_cnt (hk : k.val < 10) (h0 : ¬t.val % 3 = 0) (h1 : ¬t.val % 3 = 2) :
    (outsAt0 (F := Ideal) m c t.val t.isLt).2.2.1 (ix2 k l)
      = (outsAt0 m c (t.val - 1) (Nat.lt_of_le_of_lt (Nat.sub_le _ _) t.isLt)).2.2.1 (ix2 k l) + colCnt (iblk m c 0 t) (iblk m c 1 t) k l := by
  rw [outsAt0_B m c t h0 h1]
  exact CaseB.cnt_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2.2.1 (outsAt0 m c (t.val - 1) (Nat.lt_of_le_of_lt (Nat.sub_le _ _) t.isLt)).2.2.2 k hk l

theorem stepB_sum (hk : k.val < 10) (h0 : ¬t.val % 3 = 0) (h1 : ¬t.val % 3 = 2) :
    (outsAt0 (F := Ideal) m c t.val t.isLt).2.2.2 (ix2 k l)
      = (outsAt0 m c (t.val - 1) (Nat.lt_of_le_of_lt (Nat.sub_le _ _) t.isLt)).2.2.2 (ix2 k l) + colSum (iblk m c 0 t) (iblk m c 1 t) k l := by
  rw [outsAt0_B m c t h0 h1]
  exact CaseB.sum_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2.2.1 (outsAt0 m c (t.val - 1) (Nat.lt_of_le_of_lt (Nat.sub_le _ _) t.isLt)).2.2.2 k hk l

set_option maxHeartbeats 2000000 in
/-- A core's last point: the output blocks from the accumulators of the point before. -/
theorem stepC_cnt (hk : k.val < 10) (h0 : ¬t.val % 3 = 0) (h1 : t.val % 3 = 2) :
    (outsAt0 (F := Ideal) m c t.val t.isLt).1 (ix3 (0 : Fin 1) k l)
      = (outsAt0 m c (t.val - 1) (Nat.lt_of_le_of_lt (Nat.sub_le _ _) t.isLt)).2.2.1 (ix2 k l) + colCnt (iblk m c 0 t) (iblk m c 1 t) k l := by
  rw [outsAt0_C m c t h0 h1]
  exact (CaseC.out_cnt_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2.2.1 (outsAt0 m c (t.val - 1) (Nat.lt_of_le_of_lt (Nat.sub_le _ _) t.isLt)).2.2.2 k l).trans
    (CaseC.cnt_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2.2.1 (outsAt0 m c (t.val - 1) (Nat.lt_of_le_of_lt (Nat.sub_le _ _) t.isLt)).2.2.2 k hk l)

set_option maxHeartbeats 2000000 in
theorem stepC_sum (hk : k.val < 10) (h0 : ¬t.val % 3 = 0) (h1 : t.val % 3 = 2) :
    (outsAt0 (F := Ideal) m c t.val t.isLt).2.1 (ix3 (0 : Fin 1) k l)
      = (outsAt0 m c (t.val - 1) (Nat.lt_of_le_of_lt (Nat.sub_le _ _) t.isLt)).2.2.2 (ix2 k l) + colSum (iblk m c 0 t) (iblk m c 1 t) k l := by
  rw [outsAt0_C m c t h0 h1]
  exact (CaseC.out_sum_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2.2.1 (outsAt0 m c (t.val - 1) (Nat.lt_of_le_of_lt (Nat.sub_le _ _) t.isLt)).2.2.2 k l).trans
    (CaseC.sum_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2.2.1 (outsAt0 m c (t.val - 1) (Nat.lt_of_le_of_lt (Nat.sub_le _ _) t.isLt)).2.2.2 k hk l)
end Steps

/-- The counts' output block after a core's three points `ta, tb, tc`. -/
theorem cnt_chain (c : Dev nD) (ta tb tc : Fin cfg0.N) (ha : ta.val % 3 = 0) (hb : tb.val = ta.val + 1)
    (hc : tc.val = tb.val + 1) (k : Fin 16) (hk : k.val < 10) (l : Fin 128) :
    (outsAt0 (F := Ideal) m c tc.val tc.isLt).1 (ix3 (0 : Fin 1) k l)
      = ((Cert.Ghm.zero + colCnt (iblk m c 0 ta) (iblk m c 1 ta) k l) + colCnt (iblk m c 0 tb) (iblk m c 1 tb) k l)
          + colCnt (iblk m c 0 tc) (iblk m c 1 tc) k l := by
  rw [stepC_cnt m c tc k l hk (by omega) (by omega), outsAt0_eq_of_val m c (tc.val - 1) _ tb (by omega),
    stepB_cnt m c tb k l hk (by omega) (by omega), outsAt0_eq_of_val m c (tb.val - 1) _ ta (by omega),
    stepA_cnt m c ta k l hk ha (by omega)]

/-- The sums' output block after a core's three points. -/
theorem sum_chain (c : Dev nD) (ta tb tc : Fin cfg0.N) (ha : ta.val % 3 = 0) (hb : tb.val = ta.val + 1)
    (hc : tc.val = tb.val + 1) (k : Fin 16) (hk : k.val < 10) (l : Fin 128) :
    (outsAt0 (F := Ideal) m c tc.val tc.isLt).2.1 (ix3 (0 : Fin 1) k l)
      = ((Cert.Ghm.zero + colSum (iblk m c 0 ta) (iblk m c 1 ta) k l) + colSum (iblk m c 0 tb) (iblk m c 1 tb) k l)
          + colSum (iblk m c 0 tc) (iblk m c 1 tc) k l := by
  rw [stepC_sum m c tc k l hk (by omega) (by omega), outsAt0_eq_of_val m c (tc.val - 1) _ tb (by omega),
    stepB_sum m c tb k l hk (by omega) (by omega), outsAt0_eq_of_val m c (tb.val - 1) _ ta (by omega),
    stepA_sum m c ta k l hk ha (by omega)]

end Cert.KernelIdeal.Chain

end
-- ==== Proof.KernelArrays.lean ====
/-
  From blocks to arrays.

  An input block at grid point `t` is rows `16384 t` to `16384 t + 16383` of its array. The two output arrays
  `[2, 16, 128]` are written back once per core, after the core's last point: core `q`'s block is slab `q`, and
  the two slabs cover the array. So each output array, after the run, holds at `(q, k, l)` what the output's staging
  buffer held at `(0, k, l)` after point `3 q + 2`.
-/
import proofs.«171834_j35974646072039_2_alg».proof.Proof.KernelChain

set_option maxRecDepth 16384

noncomputable section

namespace Cert.KernelIdeal.Arrays

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Chain

variable (m : (ℓ : Loc nD τ sig) → Buf (Elt Ideal) ℓ)

/-- The windows' block indices, decided over the six grid points: an input's block index is the point's position,
    an output's the core. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 3 ∧ win0_2.index t (1 : Fin 3) = 0 ∧ win0_2.index t (2 : Fin 3) = 0
    ∧ win0_3.index t (0 : Fin 3) = t.val / 3 ∧ win0_3.index t (1 : Fin 3) = 0 ∧ win0_3.index t (2 : Fin 3) = 0 :=
  (by decide +kernel : ∀ t : Fin grid0.N, _)

/-- Row `16384 t + r` of the inputs' arrays. -/
def rowOf (t : Fin cfg0.N) (r : Fin 16384) : Fin 98304 :=
  ⟨t.val * 16384 + r.val, by have h6 : t.val < 6 := lt_of_lt_of_eq t.isLt N_0; have := r.isLt; omega⟩

/-- The logits' block at point `t`, at `(r, l)`, is the logits' array at `(16384 t + r, l)`. -/
theorem iblk0_apply (c : Dev nD) (t : Fin cfg0.N) (r : Fin 16384) (l : Fin 128) :
    (iblk m c 0 t : Vec Ideal S16384x128 .f32) (ix2 r l) = V m c main_v0 (ix2 (rowOf t r) l) := by
  obtain ⟨e0, e1, -⟩ := idx_facts t
  unfold iblk
  rw [View.read_apply]
  show V m c main_v0 _ = V m c main_v0 _
  congr 1
  funext a
  apply Fin.ext
  match a with
  | ⟨0, _⟩ => show win0_0.index t 0 * 16384 + 1 * r.val = t.val * 16384 + r.val; rw [e0]; omega
  | ⟨1, _⟩ => show win0_0.index t 1 * 128 + 1 * l.val = l.val; rw [e1]; omega

/-- The targets' block at point `t`, likewise. -/
theorem iblk1_apply (c : Dev nD) (t : Fin cfg0.N) (r : Fin 16384) (l : Fin 128) :
    (iblk m c 1 t : Vec Ideal S16384x128 .bf16) (ix2 r l) = V m c main_v2 (ix2 (rowOf t r) l) := by
  obtain ⟨-, -, e0, e1, -⟩ := idx_facts t
  unfold iblk
  rw [View.read_apply]
  show V m c main_v2 _ = V m c main_v2 _
  congr 1
  funext a
  apply Fin.ext
  match a with
  | ⟨0, _⟩ => show win0_1.index t 0 * 16384 + 1 * r.val = t.val * 16384 + r.val; rw [e0]; omega
  | ⟨1, _⟩ => show win0_1.index t 1 * 128 + 1 * l.val = l.val; rw [e1]; omega

/-- The last point of core `q`. -/
def lastOf (q : Fin 2) : Fin cfg0.N := ⟨3 * q.val + 2, by have h6 : cfg0.N = 6 := N_0; have := q.isLt; omega⟩

/-- What the counts' array, and the sums' array, end holding: at `(q, k, l)` the staging buffer's `(0, k, l)` after
    core `q`'s last point. -/
def cntArr (c : Dev nD) : S2x16x128.Idx → Ideal .f32 :=
  fun j => (outsAt0 (F := Ideal) m c (lastOf (j 0)).val (lastOf (j 0)).isLt).1 (ix3 (0 : Fin 1) (j 1) (j 2))

def sumArr (c : Dev nD) : S2x16x128.Idx → Ideal .f32 :=
  fun j => (outsAt0 (F := Ideal) m c (lastOf (j 0)).val (lastOf (j 0)).isLt).2.1 (ix3 (0 : Fin 1) (j 1) (j 2))

/-- `cntArr` and `sumArr` at an index whose core's last point is `t` and whose position in the slab is `y`. -/
theorem cntArr_of (c : Dev nD) (j : S2x16x128.Idx) (t : Fin cfg0.N) (y : S1x16x128.Idx) (h1 : lastOf (j 0) = t)
    (h2 : ix3 (0 : Fin 1) (j 1) (j 2) = y) : cntArr m c j = (outsAt0 (F := Ideal) m c t.val t.isLt).1 y := by
  subst h1; subst h2; rfl

theorem sumArr_of (c : Dev nD) (j : S2x16x128.Idx) (t : Fin cfg0.N) (y : S1x16x128.Idx) (h1 : lastOf (j 0) = t)
    (h2 : ix3 (0 : Fin 1) (j 1) (j 2) = y) : sumArr m c j = (outsAt0 (F := Ideal) m c t.val t.isLt).2.1 y := by
  subst h1; subst h2; rfl

/-- A flushing point is the last point of its core, and its block's index `y` sits at `(core, y₁, y₂)`. -/
theorem emb_facts2 (t : Fin cfg0.N) (h2 : t.val % 3 = 2) (y : S1x16x128.Idx) :
    lastOf ((((cfg0.win 2).blk t).view.emb y : S2x16x128.Idx) 0) = t
    ∧ ix3 (0 : Fin 1) ((((cfg0.win 2).blk t).view.emb y : S2x16x128.Idx) 1) ((((cfg0.win 2).blk t).view.emb y : S2x16x128.Idx) 2) = y := by
  obtain ⟨-, -, -, -, e0, e1, e2, -⟩ := idx_facts t
  have h0 : (y 0).val < 1 := (y 0).isLt
  constructor
  · apply Fin.ext
    show 3 * (win0_2.index t 0 * 1 + 1 * (y 0).val) + 2 = t.val
    rw [e0]; omega
  · funext a
    apply Fin.ext
    match a with
    | ⟨0, _⟩ => show 0 = (y 0).val; omega
    | ⟨1, _⟩ => show win0_2.index t 1 * 16 + 1 * (y 1).val = (y 1).val; rw [e1]; omega
    | ⟨2, _⟩ => show win0_2.index t 2 * 128 + 1 * (y 2).val = (y 2).val; rw [e2]; omega

theorem emb_facts3 (t : Fin cfg0.N) (h2 : t.val % 3 = 2) (y : S1x16x128.Idx) :
    lastOf ((((cfg0.win 3).blk t).view.emb y : S2x16x128.Idx) 0) = t
    ∧ ix3 (0 : Fin 1) ((((cfg0.win 3).blk t).view.emb y : S2x16x128.Idx) 1) ((((cfg0.win 3).blk t).view.emb y : S2x16x128.Idx) 2) = y := by
  obtain ⟨-, -, -, -, -, -, -, e0, e1, e2⟩ := idx_facts t
  have h0 : (y 0).val < 1 := (y 0).isLt
  constructor
  · apply Fin.ext
    show 3 * (win0_3.index t 0 * 1 + 1 * (y 0).val) + 2 = t.val
    rw [e0]; omega
  · funext a
    apply Fin.ext
    match a with
    | ⟨0, _⟩ => show 0 = (y 0).val; omega
    | ⟨1, _⟩ => show win0_3.index t 1 * 16 + 1 * (y 1).val = (y 1).val; rw [e1]; omega
    | ⟨2, _⟩ => show win0_3.index t 2 * 128 + 1 * (y 2).val = (y 2).val; rw [e2]; omega

/-- What a core's last point writes back is its slab of `cntArr`. -/
theorem flushed2_eq (c : Dev nD) (t : Fin cfg0.N) (hf : (cfg0.win 2).flush t = true) :
    (dats m 0 c).flushed 2 t = ((cfg0.win 2).blk t).view.read (Elt Ideal) (cntArr m c) := by
  have h2 : t.val % 3 = 2 := (flush0_2 t).mp hf
  show (cfg0.win 2).cut (grid0.coords t) ((dats m 0 c).after 2 t) = _
  rw [after0_2]
  funext y
  show (outsAt0 m c t.val t.isLt).1 y = cntArr m c (((cfg0.win 2).blk t).view.emb y)
  obtain ⟨ha, hb⟩ := emb_facts2 t h2 y
  exact (cntArr_of m c _ t y ha hb).symm

theorem flushed3_eq (c : Dev nD) (t : Fin cfg0.N) (hf : (cfg0.win 3).flush t = true) :
    (dats m 0 c).flushed 3 t = ((cfg0.win 3).blk t).view.read (Elt Ideal) (sumArr m c) := by
  have h2 : t.val % 3 = 2 := (flush0_3 t).mp hf
  show (cfg0.win 3).cut (grid0.coords t) ((dats m 0 c).after 3 t) = _
  rw [after0_3]
  funext y
  show (outsAt0 m c t.val t.isLt).2.1 y = sumArr m c (((cfg0.win 3).blk t).view.emb y)
  obtain ⟨ha, hb⟩ := emb_facts3 t h2 y
  exact (sumArr_of m c _ t y ha hb).symm

/-- Every index of an output array lies in the block of its core's last point. -/
theorem cover2 (i : S2x16x128.Idx) :
    ∃ t : Fin cfg0.N, (cfg0.win 2).flush t = true ∧ i ∈ ((cfg0.win 2).blk t).view.set := by
  have h0 : (i 0).val < 2 := (i 0).isLt
  have h1 : (i 1).val < 16 := (i 1).isLt
  have h2 : (i 2).val < 128 := (i 2).isLt
  refine ⟨lastOf (i 0), (flush0_2 _).mpr (by show (3 * (i 0).val + 2) % 3 = 2; omega), ?_⟩
  obtain ⟨-, -, -, -, e0, e1, e2, -⟩ := idx_facts (lastOf (i 0))
  have e0' : win0_2.index (lastOf (i 0)) 0 = (i 0).val := by rw [e0]; show (3 * (i 0).val + 2) / 3 = (i 0).val; omega
  show i ∈ ((View.whole main_v3_0).slice (win0_2.rect (lastOf (i 0)))).set
  rw [View.set_slice_whole, Rect.mem_set_unit]
  intro a
  match a with
  | ⟨0, _⟩ => show win0_2.index (lastOf (i 0)) 0 * 1 ≤ (i 0).val ∧ (i 0).val < win0_2.index (lastOf (i 0)) 0 * 1 + 1; rw [e0']; omega
  | ⟨1, _⟩ => show win0_2.index (lastOf (i 0)) 1 * 16 ≤ (i 1).val ∧ (i 1).val < win0_2.index (lastOf (i 0)) 1 * 16 + 16; rw [e1]; omega
  | ⟨2, _⟩ => show win0_2.index (lastOf (i 0)) 2 * 128 ≤ (i 2).val ∧ (i 2).val < win0_2.index (lastOf (i 0)) 2 * 128 + 128; rw [e2]; omega

theorem cover3 (i : S2x16x128.Idx) :
    ∃ t : Fin cfg0.N, (cfg0.win 3).flush t = true ∧ i ∈ ((cfg0.win 3).blk t).view.set := by
  have h0 : (i 0).val < 2 := (i 0).isLt
  have h1 : (i 1).val < 16 := (i 1).isLt
  have h2 : (i 2).val < 128 := (i 2).isLt
  refine ⟨lastOf (i 0), (flush0_3 _).mpr (by show (3 * (i 0).val + 2) % 3 = 2; omega), ?_⟩
  obtain ⟨-, -, -, -, -, -, -, e0, e1, e2⟩ := idx_facts (lastOf (i 0))
  have e0' : win0_3.index (lastOf (i 0)) 0 = (i 0).val := by rw [e0]; show (3 * (i 0).val + 2) / 3 = (i 0).val; omega
  show i ∈ ((View.whole main_v3_1).slice (win0_3.rect (lastOf (i 0)))).set
  rw [View.set_slice_whole, Rect.mem_set_unit]
  intro a
  match a with
  | ⟨0, _⟩ => show win0_3.index (lastOf (i 0)) 0 * 1 ≤ (i 0).val ∧ (i 0).val < win0_3.index (lastOf (i 0)) 0 * 1 + 1; rw [e0']; omega
  | ⟨1, _⟩ => show win0_3.index (lastOf (i 0)) 1 * 16 ≤ (i 1).val ∧ (i 1).val < win0_3.index (lastOf (i 0)) 1 * 16 + 16; rw [e1]; omega
  | ⟨2, _⟩ => show win0_3.index (lastOf (i 0)) 2 * 128 ≤ (i 2).val ∧ (i 2).val < win0_3.index (lastOf (i 0)) 2 * 128 + 128; rw [e2]; omega

/-- The two output arrays after the run. -/
theorem final2 (c : Dev nD) : (dats m 0 c).arrAt 2 cfg0.N = cntArr m c :=
  (dats m 0 c).arrAt_eq_of_cover 2 (cntArr m c) (flushed2_eq m c) cover2

theorem final3 (c : Dev nD) : (dats m 0 c).arrAt 3 cfg0.N = sumArr m c :=
  (dats m 0 c).arrAt_eq_of_cover 3 (sumArr m c) (flushed3_eq m c) cover3

end Cert.KernelIdeal.Arrays

end
-- ==== Proof.KernelTail.lean ====
/-
  The kernel's host operations after the region, as one function of the two result arrays `[2, 16, 128]`, and
  that function read at the exact values.

  Rows 0 to 9 of each array are summed over the two cores and the 128 lanes into the ten counts and the ten
  sums; `N` is the number of positive counts; the result is the sum over the bins of
  `(T / max count 1) / max N 1` times the bin's sum, divided by `T`.
-/
import proofs.«171834_j35974646072039_2_alg».proof.Proof.Gen.KernelIdeal
import proofs.«171834_j35974646072039_2_alg».proof.Proof.Elementwise
import Idealize.ShloMosaic.Lib.ValueIdx
import Idealize.ShloMosaic.Lib.Pipeline.Value
import Idealize.ShloMosaic.PureOps.Ideal.Laws

noncomputable section

namespace Cert.KernelIdeal.Tail

open Idealize.ShloMosaic Idealize.ShloMosaic.ValueIdx Cert.KernelIdeal Cert.KernelIdeal.Gen

variable {F : FTy → Type} [FloatOps F]

/-- Rows 0 to 9 of a result array summed over cores and lanes, from zero. -/
def perBin (raw : FVec F S2x16x128 .f32) : FVec F S10 .f32 :=
  Host.reduceAdd (extractStridedSlice S2x10x128 ![0, 0, 0] raw slices_S2x16x128_S2x10x128_0_0_0)
    (constant (F := F) S_ .f32 0x00000000#32) reducesTo_S2x10x128_S10_d0_2 h_S_

/-- The number of positive counts, as a float. -/
def nbArr (cnts : FVec F S10 .f32) : FVec F S_ .f32 :=
  sitofp .f32 (Host.reduce IntOp.addi
    (extui 32 (cmpf .ogt cnts (broadcastInDim S10 ![] bcast_S_S10 (constant (F := F) S_ .f32 0x00000000#32))) natLt_1_32)
    (constantI S_ 32 0#32) reducesTo_S10_S_d0 h_S_)

/-- The loss from the ten counts and the ten sums. -/
def fromBins (counts sums : FVec F S10 .f32) : FVec F S_ .f32 :=
  Host.divf (Host.reduceAdd (mulf
      (Host.divf (Host.divf (broadcastInDim S10 ![] bcast_S_S10 (constant (F := F) S_ .f32 0x4B400000#32))
          (maximumf counts (broadcastInDim S10 ![] bcast_S_S10 (constant (F := F) S_ .f32 0x3F800000#32))))
        (broadcastInDim S10 ![] bcast_S_S10 (maximumf (nbArr counts) (constant (F := F) S_ .f32 0x3F800000#32))))
      sums) (constant (F := F) S_ .f32 0x00000000#32) reducesTo_S10_S_d0 h_S_)
    (constant (F := F) S_ .f32 0x4B400000#32)

/-- The kernel's result from its two result arrays. -/
def tail (cntRaw sumRaw : FVec F S2x16x128 .f32) : FVec F S_ .f32 :=
  fromBins (perBin cntRaw) (perBin sumRaw)

/-! ### Read at the exact values -/

/-- The (core, lane) pairs as the indices of `[2, 10, 128]` in bin `k`. -/
def slab (k : Fin 10) : Fin 2 × Fin 128 ↪ S2x10x128.Idx :=
  ⟨fun p => ix3 p.1 k p.2, fun p p' h => Prod.ext (congrFun h 0) (congrFun h 2)⟩

theorem filter_drop (k : Fin 10) :
    Finset.univ.filter (fun i : S2x10x128.Idx => reducesTo_S2x10x128_S10_d0_2.drop i = (ix1 k : S10.Idx))
      = Finset.univ.map (slab k) := by
  ext i
  simp only [Finset.mem_filter, Finset.mem_univ, true_and, Finset.mem_map]
  constructor
  · intro h
    have h1 : i 1 = k := congrFun h 0
    refine ⟨(i 0, i 2), ?_⟩
    show ix3 (i 0) k (i 2) = i
    rw [← h1]
    exact (eq_ix3 i).symm
  · rintro ⟨p, rfl⟩
    funext b
    match b with
    | ⟨0, _⟩ => rfl

/-- Bin `k`'s entry: zero plus the array's row `k` summed over cores and lanes. -/
theorem perBin_apply (raw : FVec Ideal S2x16x128 .f32) (k : Fin 10) :
    perBin (F := Ideal) raw (ix1 k)
      = Cert.Ghm.zero + ∑ q : Fin 2, ∑ l : Fin 128, raw (ix3 q (⟨k.val, by omega⟩ : Fin 16) l) := by
  show Ideal.hostReduceAdd _ _ _ (ix1 k) = _
  unfold Ideal.hostReduceAdd
  rw [filter_drop, Finset.sum_map, Fintype.sum_prod_type]
  congr 1
  refine Finset.sum_congr rfl fun q _ => Finset.sum_congr rfl fun l _ => ?_
  show extractStridedSlice S2x10x128 ![0, 0, 0] raw _ (ix3 q k l) = _
  exact extractStridedSlice_apply _ raw _ _ _ (fun a => by
    match a with
    | ⟨0, _⟩ => show q.val = 0 + q.val; omega
    | ⟨1, _⟩ => show k.val = 0 + k.val; omega
    | ⟨2, _⟩ => show l.val = 0 + l.val; omega)

/-- The loss from the bins, at its one index: the sum over the ten bins, from zero, divided by `T`. -/
theorem fromBins_apply (counts sums : FVec Ideal S10 .f32) :
    fromBins (F := Ideal) counts sums ix0
      = Ideal.div (Cert.Ghm.zero + ∑ i : S10.Idx,
          Ideal.div (Ideal.div Cert.Ghm.tot (max (counts i) Cert.Ghm.one)) (max (nbArr (F := Ideal) counts ix0) Cert.Ghm.one)
            * sums i) Cert.Ghm.tot := by
  show Ideal.div (Ideal.hostReduceAdd _ _ _ ix0) _ = _
  rw [Ideal.hostReduceAdd_total _ (fun b => b.elim0)]
  rfl

end Cert.KernelIdeal.Tail

end
-- ==== Proof.KernelRun.lean ====
/-
  The kernel's run, read: every weakly fair execution of the idealized kernel terminates with its result at the
  host tail's function of the two output arrays, and its arguments unchanged.
-/
import proofs.«171834_j35974646072039_2_alg».proof.Proof.KernelArrays
import proofs.«171834_j35974646072039_2_alg».proof.Proof.KernelTail
import Idealize.ShloMosaic.Lib.StableHlo.Run

set_option maxRecDepth 16384

noncomputable section

namespace Cert.KernelIdeal.Run

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Arrays

variable (m : (ℓ : Loc nD τ sig) → Buf (Elt Ideal) ℓ) (ρ : Dev nD → PrngReg)

set_option maxHeartbeats 4000000 in
/-- What the lines after the region leave in the result buffer: the tail's function of the output arrays. -/
theorem tail_eq (c : Dev nD) :
    Pipeline.afterTail₀ cfgs (dats (F := Ideal) m) 0 (V0 m) [hostOps1] c main_v22
      = Cert.KernelIdeal.Tail.tail (F := Ideal) (cntArr m c) (sumArr m c) := by
  unfold Pipeline.afterTail₀
  show StableHlo.after hostOps1 _ (Proc.devRef .tc main_v22) = _
  after_results_simp
  rw [Pipeline.withArrays_arr spec0 launch0.win.arr_inj c _ _ 2, Pipeline.withArrays_arr spec0 launch0.win.arr_inj c _ _ 3,
    final2, final3]
  rfl

/-- The run, read. -/
theorem run : θ_run defs (onTc (τ := τ) (main (F := Ideal))) ⟨m, fun _ => 0, ρ⟩ fun r => ∀ c : Dev nD,
      r.2.mem ((c.tc : Thread nD τ).loc main_v22) = Cert.KernelIdeal.Tail.tail (F := Ideal) (cntArr m c) (sumArr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v22 (Pipeline.mem_restRefs_of main_v22 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Run

end
-- ==== Proof.LibRowTiles.lean ====
/-
  Cert.Lib.RowTiles: a finite sum regrouped by tiles.

  A sequence of `T * B` places is `T` tiles of `B` places, place `r` of tile `t` being place `t * B + r`. In any
  additive commutative monoid the sum over all places is the sum over the tiles of each tile's sum (`sum_tiles`):
  what a kernel that walks a long axis tile by tile, adding each tile's reduction into an accumulator, ends
  holding. Over the extended reals too (only the monoid laws are used), so no finiteness is needed.
  Imports only Mathlib.
-/
import Mathlib

namespace Cert.Lib.RowTiles

/-- Place `r` of tile `t`, among `T * B` places. -/
def place (T B : ℕ) (t : Fin T) (r : Fin B) : Fin (T * B) :=
  ⟨t.val * B + r.val, by
    have ht := t.isLt
    have hr := r.isLt
    calc t.val * B + r.val < t.val * B + B := by omega
      _ = (t.val + 1) * B := by ring
      _ ≤ T * B := Nat.mul_le_mul_right B (by omega)⟩

/-- In any additive commutative monoid a sum over `T * B` places is the sum over the `T` tiles of the sums over each
    tile's `B` places. -/
theorem sum_tiles {M : Type*} [AddCommMonoid M] (T B : ℕ) (g : Fin (T * B) → M) :
    ∑ i, g i = ∑ t : Fin T, ∑ r : Fin B, g (place T B t r) := by
  rw [← Equiv.sum_comp finProdFinEquiv g, Fintype.sum_prod_type]
  refine Finset.sum_congr rfl fun t _ => Finset.sum_congr rfl fun r _ => congrArg g (Fin.ext ?_)
  show r.val + B * t.val = t.val * B + r.val
  ring

end Cert.Lib.RowTiles
-- ==== Proof.BinRange.lean ====
/-
  Every bin word is one of the ten bins' words.

  The gradient norm `|σ(x) - y|` is a non-negative extended real, so ten times it is non-negative or `+∞`; its
  floor, taken to a 32-bit signed word, is a word of a natural number below `2 ^ 31` (the conversion clamps at the
  word's range); and the signed minimum of such a word with nine is the word of a number from 0 to 9.
-/
import proofs.«171834_j35974646072039_2_alg».proof.Proof.Elementwise
noncomputable section
namespace Cert.Ghm
open Idealize.ShloMosaic

/-- The literal ten. -/
theorem ten_eq : ten = ((10 : ℝ) : EReal) := by simp [ten, Ideal.ofBits, Ideal.ieee, -EReal.coe_mul] <;> norm_num

/-- The floor of a non-negative extended real times ten, as a 32-bit signed word, is a word of a non-negative
    integer below `2 ^ 31`. -/
theorem fptosi_floor_nonneg (g : EReal) (hg : 0 ≤ g) :
    ∃ n : ℕ, n < 2147483648 ∧ Ideal.fptosi 32 (Ideal.liftRound Int.floor (g * ten)) = BitVec.ofNat 32 n := by
  rw [ten_eq]
  induction g using EReal.rec with
  | bot => exact absurd hg (by simp)
  | top =>
    refine ⟨2147483647, by norm_num, ?_⟩
    rw [EReal.top_mul_coe_of_pos (by norm_num : (0 : ℝ) < 10), Ideal.liftRound_top]
    simp [Ideal.fptosi]
  | coe r =>
    have hr : 0 ≤ r := by exact_mod_cast hg
    have hf : (0 : ℤ) ≤ ⌊r * 10⌋ := Int.floor_nonneg.mpr (by positivity)
    rw [← EReal.coe_mul, Ideal.liftRound_coe]
    unfold Ideal.fptosi
    rw [Ideal.toIntClamped_coe, if_pos (by exact_mod_cast hf), Int.floor_intCast]
    obtain ⟨k, hk⟩ := Int.eq_ofNat_of_zero_le hf
    rw [hk]
    by_cases hlt : k < 2147483648
    · refine ⟨k, hlt, ?_⟩
      have : max (-((2 ^ (32 - 1) : ℕ) : ℤ)) (min (((2 ^ (32 - 1) : ℕ) : ℤ) - 1) (k : ℤ)) = (k : ℤ) := by
        norm_num; omega
      rw [this, BitVec.ofInt_natCast]
    · refine ⟨2147483647, by norm_num, ?_⟩
      have : max (-((2 ^ (32 - 1) : ℕ) : ℤ)) (min (((2 ^ (32 - 1) : ℕ) : ℤ) - 1) (k : ℤ)) = ((2147483647 : ℕ) : ℤ) := by
        norm_num; omega
      rw [this, BitVec.ofInt_natCast]

/-- A word of a natural number below `2 ^ 31` reads, signed, as that number. -/
theorem toInt_ofNat_small (n : ℕ) (hn : n < 2147483648) : (BitVec.ofNat 32 n).toInt = (n : ℤ) := by
  rw [BitVec.toInt_eq_toNat_cond, BitVec.toNat_ofNat]
  have hm : n % 2 ^ 32 = n := Nat.mod_eq_of_lt (by omega)
  rw [hm, if_pos (by omega)]

/-- The signed minimum of such a word with nine is one of the ten bins' words. -/
theorem minsi_nine (n : ℕ) (hn : n < 2147483648) : ∃ k : ℕ, k < 10 ∧ IntOp.minsi (BitVec.ofNat 32 n) 9#32 = BitVec.ofNat 32 k := by
  unfold IntOp.minsi
  by_cases h : n < 9
  · refine ⟨n, by omega, ?_⟩
    rw [if_pos]
    rw [BitVec.slt, toInt_ofNat_small n hn, toInt_ofNat_small 9 (by norm_num)]
    exact decide_eq_true (by omega)
  · refine ⟨9, by omega, ?_⟩
    rw [if_neg]
    rw [BitVec.slt, toInt_ofNat_small n hn, toInt_ofNat_small 9 (by norm_num)]
    simp only [decide_eq_true_eq]
    omega

/-- An absolute value is non-negative. -/
theorem abs_nonneg' (a : EReal) : 0 ≤ max a (-a) := by
  rcases le_total 0 a with h | h
  · exact le_max_of_le_left h
  · exact le_max_of_le_right (by simpa using EReal.neg_le_neg_iff.mpr h)

/-- Every bin word is one of the ten bins. -/
theorem bin_range (x y : EReal) : ∃ i : V10.Idx, bin x y = kw i := by
  unfold bin
  obtain ⟨n, hn, e⟩ := fptosi_floor_nonneg _ (abs_nonneg' (Ideal.logistic x - y))
  rw [e]
  obtain ⟨k, hk, e'⟩ := minsi_nine n hn
  exact ⟨ValueIdx.ix1 ⟨k, hk⟩, e'⟩

end Cert.Ghm
end
-- ==== Proof.KernelLoss.lean ====
/-
  The kernel's result is the loss summed bin by bin.

  With `xs`, `ys` the logits' and targets' `[98304, 128]` arrays as the region finds them, an element `e` has bin
  word `bin (xs e) (ys e)` and term `bce (xs e) (ys e)`. Row `k < 10` of the counts' output array, summed over the two
  cores and the 128 lanes, adds up — core by core, lane by lane, block by block, row by row — one for every element
  in bin `k`: all `98304 * 128` elements, each once. Likewise the sums' array adds up the terms of bin `k`.
-/
import proofs.«171834_j35974646072039_2_alg».proof.Proof.KernelRun
import proofs.«171834_j35974646072039_2_alg».proof.Proof.LibRowTiles
import proofs.«171834_j35974646072039_2_alg».proof.Proof.BinRange

set_option maxRecDepth 16384

noncomputable section

namespace Cert.KernelIdeal.Loss

open Idealize.ShloMosaic Idealize.ShloMosaic.TcCoe Idealize.SL.Sem Idealize.ShloMosaic.ValueIdx
open Cert.KernelIdeal Cert.KernelIdeal.Gen Cert.KernelIdeal.Chain Cert.KernelIdeal.Arrays

variable (m : (ℓ : Loc nD τ sig) → Buf (Elt Ideal) ℓ)

/-- The two input arrays as the region finds them, and an element's bin word and term. -/
def xs (c : Dev nD) : S98304x128.Idx → EReal := V m c main_v0
def ys (c : Dev nD) : S98304x128.Idx → EReal := V m c main_v2
def bOf (c : Dev nD) : S98304x128.Idx → BitVec 32 := fun e => Cert.Ghm.bin (xs m c e) (ys m c e)
def vOf (c : Dev nD) : S98304x128.Idx → EReal := fun e => Cert.Ghm.bce (xs m c e) (ys m c e)

/-- A block's lane: the number of its elements in bin `k`, over the arrays. -/
theorem colCnt_eq (c : Dev nD) (t : Fin cfg0.N) (k : Fin 16) (l : Fin 128) :
    colCnt (iblk m c 0 t) (iblk m c 1 t) k l
      = ∑ r : Fin 16384, Cert.Ghm.ind (bOf m c (ix2 (rowOf t r) l)) (BitVec.ofNat 32 k.val) := by
  unfold colCnt
  refine Finset.sum_congr rfl fun r _ => ?_
  rw [Rows.bin_apply (iblk m c 0 t) (iblk m c 1 t) (ix2 r l), iblk0_apply m c t r l, iblk1_apply m c t r l]
  rfl

/-- A block's lane: the sum of the terms of its elements in bin `k`, over the arrays. -/
theorem colSum_eq (c : Dev nD) (t : Fin cfg0.N) (k : Fin 16) (l : Fin 128) :
    colSum (iblk m c 0 t) (iblk m c 1 t) k l
      = ∑ r : Fin 16384, Cert.Ghm.ind (bOf m c (ix2 (rowOf t r) l)) (BitVec.ofNat 32 k.val) * vOf m c (ix2 (rowOf t r) l) := by
  unfold colSum
  refine Finset.sum_congr rfl fun r _ => ?_
  rw [Rows.bin_apply (iblk m c 0 t) (iblk m c 1 t) (ix2 r l), Rows.term_apply (iblk m c 0 t) (iblk m c 1 t) (ix2 r l),
    iblk0_apply m c t r l, iblk1_apply m c t r l]
  rfl

/-- Point `i` of core `q`. -/
def pt (q : Fin 2) (i : Fin 3) : Fin cfg0.N :=
  ⟨3 * q.val + i.val, by have h6 : cfg0.N = 6 := N_0; have := q.isLt; have := i.isLt; omega⟩

/-- A sum over all elements, regrouped as the kernel adds them up: per core, per lane, the three blocks' rows. -/
theorem sum_elements {M : Type*} [AddCommMonoid M] (g : S98304x128.Idx → M) :
    ∑ e, g e = ∑ q : Fin 2, ∑ l : Fin 128,
      ((((0 : M) + ∑ r : Fin 16384, g (ix2 (rowOf (pt q 0) r) l)) + ∑ r : Fin 16384, g (ix2 (rowOf (pt q 1) r) l))
        + ∑ r : Fin 16384, g (ix2 (rowOf (pt q 2) r) l)) := by
  have hrow : ∀ (q : Fin 2) (i : Fin 3) (r : Fin 16384),
      Cert.Lib.RowTiles.place 6 16384 (Cert.Lib.RowTiles.place 2 3 q i) r = rowOf (pt q i) r := fun q i r =>
    Fin.ext (by show (q.val * 3 + i.val) * 16384 + r.val = (3 * q.val + i.val) * 16384 + r.val; ring)
  rw [sum_idx2 g, Finset.sum_comm]
  have h1 : ∀ l : Fin 128, ∑ i : Fin 98304, g (ix2 i l)
      = ∑ q : Fin 2, ∑ i : Fin 3, ∑ r : Fin 16384, g (ix2 (rowOf (pt q i) r) l) := fun l => by
    rw [Cert.Lib.RowTiles.sum_tiles 6 16384 (fun i => g (ix2 i l)),
      Cert.Lib.RowTiles.sum_tiles 2 3 (fun t => ∑ r : Fin 16384, g (ix2 (Cert.Lib.RowTiles.place 6 16384 t r) l))]
    refine Finset.sum_congr rfl fun q _ => Finset.sum_congr rfl fun i _ => Finset.sum_congr rfl fun r _ => ?_
    rw [hrow]
  rw [Finset.sum_congr rfl fun l _ => h1 l, Finset.sum_comm]
  refine Finset.sum_congr rfl fun q _ => Finset.sum_congr rfl fun l _ => ?_
  rw [Fin.sum_univ_three, zero_add]

/-- Row `k` of the counts' array at `(q, k, l)`: zero and the three blocks' counts of core `q`. -/
theorem cntArr_apply (c : Dev nD) (q : Fin 2) (k : Fin 16) (hk : k.val < 10) (l : Fin 128) :
    cntArr m c (ix3 q k l)
      = ((Cert.Ghm.zero + ∑ r : Fin 16384, Cert.Ghm.ind (bOf m c (ix2 (rowOf (pt q 0) r) l)) (BitVec.ofNat 32 k.val))
          + ∑ r : Fin 16384, Cert.Ghm.ind (bOf m c (ix2 (rowOf (pt q 1) r) l)) (BitVec.ofNat 32 k.val))
          + ∑ r : Fin 16384, Cert.Ghm.ind (bOf m c (ix2 (rowOf (pt q 2) r) l)) (BitVec.ofNat 32 k.val) := by
  rw [cntArr_of m c (ix3 q k l) (pt q 2) (ix3 (0 : Fin 1) k l) rfl rfl,
    cnt_chain m c (pt q 0) (pt q 1) (pt q 2) (by show (3 * q.val + 0) % 3 = 0; omega) rfl rfl k hk l,
    colCnt_eq, colCnt_eq, colCnt_eq]

theorem sumArr_apply (c : Dev nD) (q : Fin 2) (k : Fin 16) (hk : k.val < 10) (l : Fin 128) :
    sumArr m c (ix3 q k l)
      = ((Cert.Ghm.zero + ∑ r : Fin 16384, Cert.Ghm.ind (bOf m c (ix2 (rowOf (pt q 0) r) l)) (BitVec.ofNat 32 k.val) * vOf m c (ix2 (rowOf (pt q 0) r) l))
          + ∑ r : Fin 16384, Cert.Ghm.ind (bOf m c (ix2 (rowOf (pt q 1) r) l)) (BitVec.ofNat 32 k.val) * vOf m c (ix2 (rowOf (pt q 1) r) l))
          + ∑ r : Fin 16384, Cert.Ghm.ind (bOf m c (ix2 (rowOf (pt q 2) r) l)) (BitVec.ofNat 32 k.val) * vOf m c (ix2 (rowOf (pt q 2) r) l) := by
  rw [sumArr_of m c (ix3 q k l) (pt q 2) (ix3 (0 : Fin 1) k l) rfl rfl,
    sum_chain m c (pt q 0) (pt q 1) (pt q 2) (by show (3 * q.val + 0) % 3 = 0; omega) rfl rfl k hk l,
    colSum_eq, colSum_eq, colSum_eq]

/-- The ten counts are the numbers of elements per bin, -/
theorem perBin_cnt (c : Dev nD) (i : S10.Idx) :
    Cert.KernelIdeal.Tail.perBin (F := Ideal) (cntArr m c) i = Cert.Ghm.cnt (bOf m c) (Cert.Ghm.kw i) := by
  obtain ⟨k, rfl⟩ : ∃ k : Fin 10, i = ix1 k := ⟨i 0, eq_ix1 i⟩
  rw [Cert.KernelIdeal.Tail.perBin_apply]
  unfold Cert.Ghm.cnt
  rw [sum_elements (fun e => if bOf m c e = Cert.Ghm.kw (ix1 k) then (1 : EReal) else 0),
    show Cert.Ghm.zero = 0 from Ideal.ofBits_zero_f32, zero_add]
  refine Finset.sum_congr rfl fun q _ => Finset.sum_congr rfl fun l _ => ?_
  rw [cntArr_apply m c q ⟨k.val, by omega⟩ k.isLt l, show Cert.Ghm.zero = 0 from Ideal.ofBits_zero_f32]
  simp only [Cert.Ghm.ind_eq]
  rfl

/-- and the ten sums the sums of the terms per bin. -/
theorem perBin_sum (c : Dev nD) (i : S10.Idx) :
    Cert.KernelIdeal.Tail.perBin (F := Ideal) (sumArr m c) i = Cert.Ghm.binSum (bOf m c) (vOf m c) (Cert.Ghm.kw i) := by
  obtain ⟨k, rfl⟩ : ∃ k : Fin 10, i = ix1 k := ⟨i 0, eq_ix1 i⟩
  rw [Cert.KernelIdeal.Tail.perBin_apply]
  unfold Cert.Ghm.binSum
  rw [sum_elements (fun e => (if bOf m c e = Cert.Ghm.kw (ix1 k) then (1 : EReal) else 0) * vOf m c e),
    show Cert.Ghm.zero = 0 from Ideal.ofBits_zero_f32, zero_add]
  refine Finset.sum_congr rfl fun q _ => Finset.sum_congr rfl fun l _ => ?_
  rw [sumArr_apply m c q ⟨k.val, by omega⟩ k.isLt l, show Cert.Ghm.zero = 0 from Ideal.ofBits_zero_f32]
  simp only [Cert.Ghm.ind_eq]
  rfl

/-- The number of non-empty bins, as the kernel's host tail computes it from the counts. -/
def nb (c : Dev nD) : EReal :=
  Cert.KernelIdeal.Tail.nbArr (F := Ideal) (fun i => Cert.Ghm.cnt (bOf m c) (Cert.Ghm.kw i)) ix0

/-- THE KERNEL'S RESULT is the loss summed bin by bin. -/
theorem result_eq (c : Dev nD) :
    Cert.KernelIdeal.Tail.tail (F := Ideal) (cntArr m c) (sumArr m c) ix0
      = Cert.Ghm.lossByBin (nb m c) (bOf m c) (vOf m c) := by
  unfold Cert.KernelIdeal.Tail.tail
  rw [funext (perBin_cnt m c), funext (perBin_sum m c), Cert.KernelIdeal.Tail.fromBins_apply]
  rfl

end Cert.KernelIdeal.Loss

end
-- ==== Proof.RefRun.lean ====
/-
  The reference program as the list of its host operations, and its run read back: every weakly fair
  execution of the reference terminates with its result at one composed function of the two argument
  arrays, the arguments unchanged. The composed function is stated in stages: the bin word of every
  element, the ten counts (a scatter of ones), the number of non-empty bins, the weight of every
  element (a gather of its bin's count), the cross-entropy terms, and the weighted sum over all elements.
-/
import proofs.«171834_j35974646072039_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The reference's operations, in program order. -/
abbrev ops : List (HloOp τ sig (Elt F)) :=
  [ unary main_arg0 main_v0 (Host.negf : (⟨S8x1x96x128x128, .f32⟩ : BufTy).Contents (Elt F) → (⟨S8x1x96x128x128, .f32⟩ : BufTy).Contents (Elt F)),
    unary main_v0 main_v1 (Host.exp : (⟨S8x1x96x128x128, .f32⟩ : BufTy).Contents (Elt F) → (⟨S8x1x96x128x128, .f32⟩ : BufTy).Contents (Elt F)),
    nullary main_cst (constant S_ .f32 0x3F800000#32),
    unary main_cst main_v2 (broadcastInDim S8x1x96x128x128 ![] bcast_S_S8x1x96x128x128 : (⟨S_, .f32⟩ : BufTy).Contents (Elt F) → (⟨S8x1x96x128x128, .f32⟩ : BufTy).Contents (Elt F)),
    binary main_v2 main_v1 main_v3 (addf : (⟨S8x1x96x128x128, .f32⟩ : BufTy).Contents (Elt F) → (⟨S8x1x96x128x128, .f32⟩ : BufTy).Contents (Elt F) → (⟨S8x1x96x128x128, .f32⟩ : BufTy).Contents (Elt F)),
    nullary main_cst_0 (constant S_ .f32 0x3F800000#32),
    unary main_cst_0 main_v4 (broadcastInDim S8x1x96x128x128 ![] bcast_S_S8x1x96x128x128 : (⟨S_, .f32⟩ : BufTy).Contents (Elt F) → (⟨S8x1x96x128x128, .f32⟩ : BufTy).Contents (Elt F)),
    binary main_v4 main_v3 main_v5 (Host.divf : (⟨S8x1x96x128x128, .f32⟩ : BufTy).Contents (Elt F) → (⟨S8x1x96x128x128, .f32⟩ : BufTy).Contents (Elt F) → (⟨S8x1x96x128x128, .f32⟩ : BufTy).Contents (Elt F)),
    binary main_v5 main_arg1 main_v6 (subf : (⟨S8x1x96x128x128, .f32⟩ : BufTy).Contents (Elt F) → (⟨S8x1x96x128x128, .f32⟩ : BufTy).Contents (Elt F) → (⟨S8x1x96x128x128, .f32⟩ : BufTy).Contents (Elt F)),
    unary main_v6 main_v7 (Host.absf : (⟨S8x1x96x128x128, .f32⟩ : BufTy).Contents (Elt F) → (⟨S8x1x96x128x128, .f32⟩ : BufTy).Contents (Elt F)),
    nullary main_cst_1 (constant S_ .f32 0x41200000#32),
    unary main_cst_1 main_v8 (broadcastInDim S8x1x96x128x128 ![] bcast_S_S8x1x96x128x128 : (⟨S_, .f32⟩ : BufTy).Contents (Elt F) → (⟨S8x1x96x128x128, .f32⟩ : BufTy).Contents (Elt F)),
    binary main_v7 main_v8 main_v9 (mulf : (⟨S8x1x96x128x128, .f32⟩ : BufTy).Contents (Elt F) → (⟨S8x1x96x128x128, .f32⟩ : BufTy).Contents (Elt F) → (⟨S8x1x96x128x128, .f32⟩ : BufTy).Contents (Elt F)),
    unary main_v9 main_v10 (Host.floor : (⟨S8x1x96x128x128, .f32⟩ : BufTy).Contents (Elt F) → (⟨S8x1x96x128x128, .f32⟩ : BufTy).Contents (Elt F)),
    unary main_v10 main_v11 (fptosi 32 : (⟨S8x1x96x128x128, .f32⟩ : BufTy).Contents (Elt F) → (⟨S8x1x96x128x128, .i32⟩ : BufTy).Contents (Elt F)),
    nullary main_c (constantI S_ 32 9#32),
    unary main_c main_v12 (broadcastInDim S8x1x96x128x128 ![] bcast_S_S8x1x96x128x128 : (⟨S_, .i32⟩ : BufTy).Contents (Elt F) → (⟨S8x1x96x128x128, .i32⟩ : BufTy).Contents (Elt F)),
    binary main_v11 main_v12 main_v13 (minsi : (⟨S8x1x96x128x128, .i32⟩ : BufTy).Contents (Elt F) → (⟨S8x1x96x128x128, .i32⟩ : BufTy).Contents (Elt F) → (⟨S8x1x96x128x128, .i32⟩ : BufTy).Contents (Elt F)),
    reshape main_v13 main_v14 rfl shapeCasts_S8x1x96x128x128_S12582912,
    nullary main_cst_2 (constant S_ .f32 0x00000000#32),
    unary main_cst_2 main_v15 (broadcastInDim S10 ![] bcast_S_S10 : (⟨S_, .f32⟩ : BufTy).Contents (Elt F) → (⟨S10, .f32⟩ : BufTy).Contents (Elt F)),
    nullary main_c_3 (constantI S_ 32 0#32),
    unary main_c_3 main_v16 (broadcastInDim S12582912 ![] bcast_S_S12582912 : (⟨S_, .i32⟩ : BufTy).Contents (Elt F) → (⟨S12582912, .i32⟩ : BufTy).Contents (Elt F)),
    binary main_v14 main_v16 main_v17 (cmpi .slt : (⟨S12582912, .i32⟩ : BufTy).Contents (Elt F) → (⟨S12582912, .i32⟩ : BufTy).Contents (Elt F) → (⟨S12582912, .i1⟩ : BufTy).Contents (Elt F)),
    nullary main_c_4 (constantI S_ 32 10#32),
    unary main_c_4 main_v18 (broadcastInDim S12582912 ![] bcast_S_S12582912 : (⟨S_, .i32⟩ : BufTy).Contents (Elt F) → (⟨S12582912, .i32⟩ : BufTy).Contents (Elt F)),
    binary main_v14 main_v18 main_v19 (addi : (⟨S12582912, .i32⟩ : BufTy).Contents (Elt F) → (⟨S12582912, .i32⟩ : BufTy).Contents (Elt F) → (⟨S12582912, .i32⟩ : BufTy).Contents (Elt F)),
    ternary main_v17 main_v19 main_v14 main_v20 (select : (⟨S12582912, .i1⟩ : BufTy).Contents (Elt F) → (⟨S12582912, .i32⟩ : BufTy).Contents (Elt F) → (⟨S12582912, .i32⟩ : BufTy).Contents (Elt F) → (⟨S12582912, .i32⟩ : BufTy).Contents (Elt F)),
    unary main_v20 main_v21 (broadcastInDim S12582912x1 ![0] bcast_S12582912_S12582912x1_0 : (⟨S12582912, .i32⟩ : BufTy).Contents (Elt F) → (⟨S12582912x1, .i32⟩ : BufTy).Contents (Elt F)),
    nullary main_cst_5 (constant S_ .f32 0x3F800000#32),
    unary main_cst_5 main_v22 (broadcastInDim S12582912 ![] bcast_S_S12582912 : (⟨S_, .f32⟩ : BufTy).Contents (Elt F) → (⟨S12582912, .f32⟩ : BufTy).Contents (Elt F)),
    ternary main_v15 main_v21 main_v22 main_v23 ((fun x i u => Host.scatterAdd scatter_S10_S12582912x1_S12582912_n_0_0_1 x i u) : (⟨S10, .f32⟩ : BufTy).Contents (Elt F) → (⟨S12582912x1, .i32⟩ : BufTy).Contents (Elt F) → (⟨S12582912, .f32⟩ : BufTy).Contents (Elt F) → (⟨S10, .f32⟩ : BufTy).Contents (Elt F)),
    nullary main_cst_6 (constant S_ .f32 0x00000000#32),
    unary main_cst_6 main_v24 (broadcastInDim S10 ![] bcast_S_S10 : (⟨S_, .f32⟩ : BufTy).Contents (Elt F) → (⟨S10, .f32⟩ : BufTy).Contents (Elt F)),
    binary main_v23 main_v24 main_v25 (cmpf .ogt : (⟨S10, .f32⟩ : BufTy).Contents (Elt F) → (⟨S10, .f32⟩ : BufTy).Contents (Elt F) → (⟨S10, .i1⟩ : BufTy).Contents (Elt F)),
    unary main_v25 main_v26 ((extui 32 · natLt_1_32) : (⟨S10, .i1⟩ : BufTy).Contents (Elt F) → (⟨S10, .i32⟩ : BufTy).Contents (Elt F)),
    nullary main_c_7 (constantI S_ 32 0#32),
    binary main_v26 main_c_7 main_v27 ((fun x v => Host.reduce IntOp.addi x v reducesTo_S10_S_d0 h_S_) : (⟨S10, .i32⟩ : BufTy).Contents (Elt F) → (⟨S_, .i32⟩ : BufTy).Contents (Elt F) → (⟨S_, .i32⟩ : BufTy).Contents (Elt F)),
    unary main_v27 main_v28 (sitofp .f32 : (⟨S_, .i32⟩ : BufTy).Contents (Elt F) → (⟨S_, .f32⟩ : BufTy).Contents (Elt F)),
    nullary main_c_8 (constantI S_ 32 0#32),
    unary main_c_8 main_v29 (broadcastInDim S8x1x96x128x128 ![] bcast_S_S8x1x96x128x128 : (⟨S_, .i32⟩ : BufTy).Contents (Elt F) → (⟨S8x1x96x128x128, .i32⟩ : BufTy).Contents (Elt F)),
    binary main_v13 main_v29 main_v30 (cmpi .slt : (⟨S8x1x96x128x128, .i32⟩ : BufTy).Contents (Elt F) → (⟨S8x1x96x128x128, .i32⟩ : BufTy).Contents (Elt F) → (⟨S8x1x96x128x128, .i1⟩ : BufTy).Contents (Elt F)),
    nullary main_c_9 (constantI S_ 32 10#32),
    unary main_c_9 main_v31 (broadcastInDim S8x1x96x128x128 ![] bcast_S_S8x1x96x128x128 : (⟨S_, .i32⟩ : BufTy).Contents (Elt F) → (⟨S8x1x96x128x128, .i32⟩ : BufTy).Contents (Elt F)),
    binary main_v13 main_v31 main_v32 (addi : (⟨S8x1x96x128x128, .i32⟩ : BufTy).Contents (Elt F) → (⟨S8x1x96x128x128, .i32⟩ : BufTy).Contents (Elt F) → (⟨S8x1x96x128x128, .i32⟩ : BufTy).Contents (Elt F)),
    ternary main_v30 main_v32 main_v13 main_v33 (select : (⟨S8x1x96x128x128, .i1⟩ : BufTy).Contents (Elt F) → (⟨S8x1x96x128x128, .i32⟩ : BufTy).Contents (Elt F) → (⟨S8x1x96x128x128, .i32⟩ : BufTy).Contents (Elt F) → (⟨S8x1x96x128x128, .i32⟩ : BufTy).Contents (Elt F)),
    unary main_v33 main_v34 (broadcastInDim S8x1x96x128x128x1 ![0, 1, 2, 3, 4] bcast_S8x1x96x128x128_S8x1x96x128x128x1_0_1_2_3_4 : (⟨S8x1x96x128x128, .i32⟩ : BufTy).Contents (Elt F) → (⟨S8x1x96x128x128x1, .i32⟩ : BufTy).Contents (Elt F)),
    binary main_v23 main_v34 main_v35 ((fun x i => Host.gather gather_S10_S8x1x96x128x128x1_S8x1x96x128x128_n_0_n_n_0_5_1 x i) : (⟨S10, .f32⟩ : BufTy).Contents (Elt F) → (⟨S8x1x96x128x128x1, .i32⟩ : BufTy).Contents (Elt F) → (⟨S8x1x96x128x128, .f32⟩ : BufTy).Contents (Elt F)),
    nullary main_cst_10 (constant S_ .f32 0x4B400000#32),
    unary main_cst_10 main_v36 (broadcastInDim S8x1x96x128x128 ![] bcast_S_S8x1x96x128x128 : (⟨S_, .f32⟩ : BufTy).Contents (Elt F) → (⟨S8x1x96x128x128, .f32⟩ : BufTy).Contents (Elt F)),
    binary main_v36 main_v35 main_v37 (Host.divf : (⟨S8x1x96x128x128, .f32⟩ : BufTy).Contents (Elt F) → (⟨S8x1x96x128x128, .f32⟩ : BufTy).Contents (Elt F) → (⟨S8x1x96x128x128, .f32⟩ : BufTy).Contents (Elt F)),
    nullary main_cst_11 (constant S_ .f32 0x3F800000#32),
    binary main_v28 main_cst_11 main_v38 (maximumf : (⟨S_, .f32⟩ : BufTy).Contents (Elt F) → (⟨S_, .f32⟩ : BufTy).Contents (Elt F) → (⟨S_, .f32⟩ : BufTy).Contents (Elt F)),
    unary main_v38 main_v39 (broadcastInDim S8x1x96x128x128 ![] bcast_S_S8x1x96x128x128 : (⟨S_, .f32⟩ : BufTy).Contents (Elt F) → (⟨S8x1x96x128x128, .f32⟩ : BufTy).Contents (Elt F)),
    binary main_v37 main_v39 main_v40 (Host.divf : (⟨S8x1x96x128x128, .f32⟩ : BufTy).Contents (Elt F) → (⟨S8x1x96x128x128, .f32⟩ : BufTy).Contents (Elt F) → (⟨S8x1x96x128x128, .f32⟩ : BufTy).Contents (Elt F)),
    nullary main_cst_12 (constant S_ .f32 0x00000000#32),
    unary main_cst_12 main_v41 (broadcastInDim S8x1x96x128x128 ![] bcast_S_S8x1x96x128x128 : (⟨S_, .f32⟩ : BufTy).Contents (Elt F) → (⟨S8x1x96x128x128, .f32⟩ : BufTy).Contents (Elt F)),
    binary main_arg0 main_v41 main_v42 (maximumf : (⟨S8x1x96x128x128, .f32⟩ : BufTy).Contents (Elt F) → (⟨S8x1x96x128x128, .f32⟩ : BufTy).Contents (Elt F) → (⟨S8x1x96x128x128, .f32⟩ : BufTy).Contents (Elt F)),
    binary main_arg0 main_arg1 main_v43 (mulf : (⟨S8x1x96x128x128, .f32⟩ : BufTy).Contents (Elt F) → (⟨S8x1x96x128x128, .f32⟩ : BufTy).Contents (Elt F) → (⟨S8x1x96x128x128, .f32⟩ : BufTy).Contents (Elt F)),
    binary main_v42 main_v43 main_v44 (subf : (⟨S8x1x96x128x128, .f32⟩ : BufTy).Contents (Elt F) → (⟨S8x1x96x128x128, .f32⟩ : BufTy).Contents (Elt F) → (⟨S8x1x96x128x128, .f32⟩ : BufTy).Contents (Elt F)),
    unary main_arg0 main_v45 (Host.absf : (⟨S8x1x96x128x128, .f32⟩ : BufTy).Contents (Elt F) → (⟨S8x1x96x128x128, .f32⟩ : BufTy).Contents (Elt F)),
    unary main_v45 main_v46 (Host.negf : (⟨S8x1x96x128x128, .f32⟩ : BufTy).Contents (Elt F) → (⟨S8x1x96x128x128, .f32⟩ : BufTy).Contents (Elt F)),
    unary main_v46 main_v47 (Host.exp : (⟨S8x1x96x128x128, .f32⟩ : BufTy).Contents (Elt F) → (⟨S8x1x96x128x128, .f32⟩ : BufTy).Contents (Elt F)),
    unary main_v47 main_v48 (Host.log1p : (⟨S8x1x96x128x128, .f32⟩ : BufTy).Contents (Elt F) → (⟨S8x1x96x128x128, .f32⟩ : BufTy).Contents (Elt F)),
    binary main_v44 main_v48 main_v49 (addf : (⟨S8x1x96x128x128, .f32⟩ : BufTy).Contents (Elt F) → (⟨S8x1x96x128x128, .f32⟩ : BufTy).Contents (Elt F) → (⟨S8x1x96x128x128, .f32⟩ : BufTy).Contents (Elt F)),
    binary main_v40 main_v49 main_v50 (mulf : (⟨S8x1x96x128x128, .f32⟩ : BufTy).Contents (Elt F) → (⟨S8x1x96x128x128, .f32⟩ : BufTy).Contents (Elt F) → (⟨S8x1x96x128x128, .f32⟩ : BufTy).Contents (Elt F)),
    nullary main_cst_13 (constant S_ .f32 0x00000000#32),
    binary main_v50 main_cst_13 main_v51 ((fun x v => Host.reduceAdd x v reducesTo_S8x1x96x128x128_S_d0_1_2_3_4 h_S_) : (⟨S8x1x96x128x128, .f32⟩ : BufTy).Contents (Elt F) → (⟨S_, .f32⟩ : BufTy).Contents (Elt F) → (⟨S_, .f32⟩ : BufTy).Contents (Elt F)),
    nullary main_cst_14 (constant S_ .f32 0x4B400000#32),
    binary main_v51 main_cst_14 main_v52 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., unary_bufs_sub .., unary_bufs_sub .., nullary_bufs_sub .., unary_bufs_sub .., binary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., binary_bufs_sub .., unary_bufs_sub .., binary_bufs_sub .., nullary_bufs_sub .., unary_bufs_sub .., binary_bufs_sub .., binary_bufs_sub .., binary_bufs_sub .., unary_bufs_sub .., unary_bufs_sub .., unary_bufs_sub .., unary_bufs_sub .., binary_bufs_sub .., binary_bufs_sub .., nullary_bufs_sub .., binary_bufs_sub .., nullary_bufs_sub .., binary_bufs_sub ..⟩

/-- A scalar literal spread over the elements' shape. -/
abbrev splat (w : BitVec 32) : FVec F S8x1x96x128x128 .f32 :=
  broadcastInDim S8x1x96x128x128 ![] bcast_S_S8x1x96x128x128 (constant (F := F) S_ .f32 w)

/-- The bin word of every element: `min ⌊|1 / (1 + exp (-x)) - y| · 10⌋ 9`. -/
def binArr (x y : FVec F S8x1x96x128x128 .f32) : IVec S8x1x96x128x128 32 :=
  minsi (fptosi 32 (Host.floor (mulf (Host.absf (subf (Host.divf (splat (F := F) 0x3F800000#32)
    (addf (splat (F := F) 0x3F800000#32) (Host.exp (Host.negf x)))) y)) (splat (F := F) 0x41200000#32))))
    (broadcastInDim S8x1x96x128x128 ![] bcast_S_S8x1x96x128x128 (constantI S_ 32 9#32))

/-- Ten zeros, and a one per element of the flat array. -/
def zeros10 : FVec F S10 .f32 := broadcastInDim S10 ![] bcast_S_S10 (constant (F := F) S_ .f32 0x00000000#32)
def onesFlat : FVec F S12582912 .f32 :=
  broadcastInDim S12582912 ![] bcast_S_S12582912 (constant (F := F) S_ .f32 0x3F800000#32)

/-- The scatter's index array: the flattened bin words (a negative word moved up by ten first), one per row. -/
def scatIdx (b : IVec S8x1x96x128x128 32) : IVec S12582912x1 32 :=
  broadcastInDim S12582912x1 ![0] bcast_S12582912_S12582912x1_0
    (select (cmpi .slt (shapeCast S12582912 b shapeCasts_S8x1x96x128x128_S12582912)
        (broadcastInDim S12582912 ![] bcast_S_S12582912 (constantI S_ 32 0#32)))
      (addi (shapeCast S12582912 b shapeCasts_S8x1x96x128x128_S12582912)
        (broadcastInDim S12582912 ![] bcast_S_S12582912 (constantI S_ 32 10#32)))
      (shapeCast S12582912 b shapeCasts_S8x1x96x128x128_S12582912))

/-- The gather's index array: the bin words (a negative word moved up by ten first) with a trailing unit axis. -/
def gathIdx (b : IVec S8x1x96x128x128 32) : IVec S8x1x96x128x128x1 32 :=
  broadcastInDim S8x1x96x128x128x1 ![0, 1, 2, 3, 4] bcast_S8x1x96x128x128_S8x1x96x128x128x1_0_1_2_3_4
    (select (cmpi .slt b (broadcastInDim S8x1x96x128x128 ![] bcast_S_S8x1x96x128x128 (constantI S_ 32 0#32)))
      (addi b (broadcastInDim S8x1x96x128x128 ![] bcast_S_S8x1x96x128x128 (constantI S_ 32 10#32)))
      b)

/-- The ten counts from the elements' bin words: ones scattered at the flattened words. -/
def cntOf (b : IVec S8x1x96x128x128 32) : FVec F S10 .f32 :=
  Host.scatterAdd scatter_S10_S12582912x1_S12582912_n_0_0_1 (zeros10 (F := F)) (scatIdx b) (onesFlat (F := F))

/-- The ten counts. -/
def cntArr (x y : FVec F S8x1x96x128x128 .f32) : FVec F S10 .f32 := cntOf (F := F) (binArr x y)

/-- The number of non-empty bins, as a float. -/
def nbArr (cnts : FVec F S10 .f32) : FVec F S_ .f32 :=
  sitofp .f32 (Host.reduce IntOp.addi
    (extui 32 (cmpf .ogt cnts (broadcastInDim S10 ![] bcast_S_S10 (constant (F := F) S_ .f32 0x00000000#32))) natLt_1_32)
    (constantI S_ 32 0#32) reducesTo_S10_S_d0 h_S_)

/-- Every element's own bin's count: a gather of the counts at the elements' bin words. -/
def gatherOf (b : IVec S8x1x96x128x128 32) (cnts : FVec F S10 .f32) : FVec F S8x1x96x128x128 .f32 :=
  Host.gather gather_S10_S8x1x96x128x128x1_S8x1x96x128x128_n_0_n_n_0_5_1 cnts (gathIdx b)

/-- The weights from every element's own count and the number of non-empty bins: `(T / count) / max N 1`. -/
def wOf (own : FVec F S8x1x96x128x128 .f32) (n : FVec F S_ .f32) : FVec F S8x1x96x128x128 .f32 :=
  Host.divf (Host.divf (splat (F := F) 0x4B400000#32) own)
    (broadcastInDim S8x1x96x128x128 ![] bcast_S_S8x1x96x128x128 (maximumf n (constant (F := F) S_ .f32 0x3F800000#32)))

/-- The weight of every element. -/
def wArr (x y : FVec F S8x1x96x128x128 .f32) : FVec F S8x1x96x128x128 .f32 :=
  wOf (F := F) (gatherOf (F := F) (binArr x y) (cntArr x y)) (nbArr (cntArr x y))

/-- The cross-entropy term of every element. -/
def bceArr (x y : FVec F S8x1x96x128x128 .f32) : FVec F S8x1x96x128x128 .f32 :=
  addf (subf (maximumf x (splat (F := F) 0x00000000#32)) (mulf x y)) (Host.log1p (Host.exp (Host.negf (Host.absf x))))

/-- The weighted terms summed over all elements, divided by `T`. -/
def lossOf (w v : FVec F S8x1x96x128x128 .f32) : FVec F S_ .f32 :=
  Host.divf (Host.reduceAdd (mulf w v) (constant (F := F) S_ .f32 0x00000000#32)
    reducesTo_S8x1x96x128x128_S_d0_1_2_3_4 h_S_) (constant (F := F) S_ .f32 0x4B400000#32)

/-- The reference's result. -/
def result (x y : FVec F S8x1x96x128x128 .f32) : FVec F S_ .f32 := lossOf (F := F) (wArr x y) (bceArr x y)

set_option maxRecDepth 8192 in
set_option maxHeartbeats 28000000 in
/-- On every device, from any memory with zero counters: every weakly fair execution of the reference terminates
    with its result at `result` of the two argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52)
        = result (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v52).trans (by after_results_simp <;> rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RefValue

end
-- ==== Proof.RefRead.lean ====
/-
  The reference's result read at the exact values: it is the loss summed element by element.

  Stage by stage, each stage read over ARBITRARY arrays known only through what they hold at an index: a scalar
  literal spread over the elements reads the literal; a bin's word is not negative, so the wrap-around of negative
  indices leaves it; a scatter of ones from zeros lands update `j` at the entry of its element's bin, so entry `k` of
  the counts is the number of elements in bin `k`; the gather reads, at an element, the count of the element's own
  bin; and the final reduction over all five axes is the sum over the elements. Then the reference's own bin words
  and terms are the elements' own.
-/
import proofs.«171834_j35974646072039_2_alg».proof.Proof.RefRun
import proofs.«171834_j35974646072039_2_alg».proof.Proof.BinRange
import Idealize.ShloMosaic.Lib.ValueIdx
import Idealize.ShloMosaic.Lib.Pipeline.Value
import Idealize.ShloMosaic.PureOps.Ideal.Laws

noncomputable section

namespace Cert.ReferenceIdeal.RefRead

open Idealize.ShloMosaic Idealize.ShloMosaic.ValueIdx Cert.ReferenceIdeal Cert.ReferenceIdeal.Gen Cert.ReferenceIdeal.RefValue

local notation "dS" => scatter_S10_S12582912x1_S12582912_n_0_0_1
local notation "dG" => gather_S10_S8x1x96x128x128x1_S8x1x96x128x128_n_0_n_n_0_5_1

/-- An update whose start word is the word of `n < 10` lands at entry `n` of the ten counts. -/
theorem resultIdx?_iff (idx : IVec S12582912x1 32) (j0 : Fin 12582912) (i : S10.Idx) (n : ℕ) (hn : n < 10)
    (hidx : idx (ix2 j0 (0 : Fin 1)) = BitVec.ofNat 32 n) :
    ScatterDims.resultIdx? dS (ix1 j0 : S12582912.Idx) idx = some i ↔ n = (i 0).val := by
  have hstart : ScatterDims.start dS (ix1 j0 : S12582912.Idx) idx (0 : Fin 1) = (n : ℤ) := by
    unfold ScatterDims.start
    rw [dif_pos (by decide)]
    have hsi : ScatterDims.siIdx dS (ix1 j0 : S12582912.Idx)
        ⟨List.idxOf (0 : Fin 1) (ScatterDims.scatterDimsToOperandDims dS), by decide⟩ = (ix2 j0 (0 : Fin 1) : S12582912x1.Idx) := by
      funext b
      refine Fin.ext ?_
      match b with
      | ⟨0, _⟩ => rfl
      | ⟨1, _⟩ => rfl
    exact (congrArg BitVec.toInt ((congrArg idx hsi).trans hidx)).trans (Cert.Ghm.toInt_ofNat_small n (by omega))
  have hwin : ScatterDims.window dS (ix1 j0 : S12582912.Idx) (0 : Fin 1) = 0 := by
    unfold ScatterDims.window
    rw [dif_neg (by decide)]
  unfold ScatterDims.resultIdx?
  have hin : ∀ a : Fin 1, 0 ≤ ScatterDims.start dS (ix1 j0 : S12582912.Idx) idx a + (ScatterDims.window dS (ix1 j0 : S12582912.Idx) a : ℤ)
      ∧ ScatterDims.start dS (ix1 j0 : S12582912.Idx) idx a + (ScatterDims.window dS (ix1 j0 : S12582912.Idx) a : ℤ) < (S10.size a : ℤ) := by
    intro a
    obtain rfl : a = 0 := Subsingleton.elim _ _
    rw [hstart, hwin]
    exact ⟨by omega, by show (n : ℤ) + ((0 : ℕ) : ℤ) < ((10 : ℕ) : ℤ); omega⟩
  rw [dif_pos hin]
  constructor
  · intro e
    have e' := congrArg (fun f : S10.Idx => (f 0).val) (Option.some.inj e)
    simp only at e'
    rw [← e']
    show n = (ScatterDims.start dS (ix1 j0 : S12582912.Idx) idx 0 + (ScatterDims.window dS (ix1 j0 : S12582912.Idx) 0 : ℤ)).toNat
    rw [hstart, hwin]; simp
  · intro e
    congr 1
    funext a
    obtain rfl : a = 0 := Subsingleton.elim _ _
    apply Fin.ext
    show (ScatterDims.start dS (ix1 j0 : S12582912.Idx) idx 0 + (ScatterDims.window dS (ix1 j0 : S12582912.Idx) 0 : ℤ)).toNat = (i 0).val
    rw [hstart, hwin, ← e]; simp

/-- The start-indices index of result index `e`: `e`'s coordinates and a trailing zero. -/
abbrev takeIdx5 (e : S8x1x96x128x128.Idx) : S8x1x96x128x128x1.Idx :=
  fun a => match a with
    | ⟨0, _⟩ => ⟨(e 0).val, (e 0).isLt⟩ | ⟨1, _⟩ => ⟨(e 1).val, (e 1).isLt⟩ | ⟨2, _⟩ => ⟨(e 2).val, (e 2).isLt⟩
    | ⟨3, _⟩ => ⟨(e 3).val, (e 3).isLt⟩ | ⟨4, _⟩ => ⟨(e 4).val, (e 4).isLt⟩ | ⟨5, _⟩ => ⟨0, Nat.one_pos⟩

/-- The gather at an element: the table at the element's start word, read signed and clamped into 0..9. -/
theorem gather_apply {α : Type} (tbl : S10.Idx → α) (idx : IVec S8x1x96x128x128x1 32) (e : S8x1x96x128x128.Idx) :
    Host.gather dG tbl idx e = tbl (ix1 ⟨min (idx (takeIdx5 e)).toInt.toNat (10 - 1), by omega⟩) := by
  unfold Host.gather
  congr 1
  funext a
  obtain rfl : a = 0 := Subsingleton.elim _ _
  refine Fin.ext ?_
  show GatherDims.start dG e idx 0 + GatherDims.batchCoord dG e 0 + GatherDims.offCoord dG e 0 = _
  rw [GatherDims.batchCoord_eq_zero _ _ _ (by decide), GatherDims.offCoord_eq_zero _ _ _ (by decide)]
  simp only [Nat.add_zero]
  unfold GatherDims.start
  rw [dif_pos (by decide)]
  have hsi : GatherDims.siIdx dG e ⟨List.idxOf (0 : Fin 1) (GatherDims.startIndexMap dG), by decide⟩ = takeIdx5 e := by
    funext b
    refine Fin.ext ?_
    match b with
    | ⟨0, _⟩ => rfl
    | ⟨1, _⟩ => rfl
    | ⟨2, _⟩ => rfl
    | ⟨3, _⟩ => rfl
    | ⟨4, _⟩ => rfl
    | ⟨5, _⟩ => rfl
  rw [hsi]
  rfl

/-! ### The stages over arbitrary arrays -/

/-- The flattening of the elements: index `j` of the flat array is element `flat j`. -/
abbrev flat : S12582912.Idx ≃ S8x1x96x128x128.Idx := Shape.reshapeEquiv shapeCasts_S8x1x96x128x128_S12582912

theorem splat_eq (w : BitVec 32) : splat (F := Ideal) w = fun _ => Ideal.ofBits .f32 w :=
  funext fun e => broadcastInDim_apply _ bcast_S_S8x1x96x128x128 _ e (fun a => a.elim0) (fun a => a.elim0)

theorem splatI_eq (w : BitVec 32) :
    (broadcastInDim S8x1x96x128x128 ![] bcast_S_S8x1x96x128x128 (constantI S_ 32 w) : IVec S8x1x96x128x128 32) = fun _ => w :=
  funext fun e => broadcastInDim_apply _ bcast_S_S8x1x96x128x128 _ e (fun a => a.elim0) (fun a => a.elim0)

theorem splatF_eq (w : BitVec 32) :
    (broadcastInDim S12582912 ![] bcast_S_S12582912 (constantI S_ 32 w) : IVec S12582912 32) = fun _ => w :=
  funext fun e => broadcastInDim_apply _ bcast_S_S12582912 _ e (fun a => a.elim0) (fun a => a.elim0)

theorem zeros10_apply (i : S10.Idx) : zeros10 (F := Ideal) i = 0 :=
  (broadcastInDim_apply _ bcast_S_S10 _ i (fun a => a.elim0) (fun a => a.elim0)).trans Ideal.ofBits_zero_f32

theorem onesFlat_apply (j : S12582912.Idx) : onesFlat (F := Ideal) j = 1 :=
  (broadcastInDim_apply _ bcast_S_S12582912 _ j (fun a => a.elim0) (fun a => a.elim0)).trans Cert.Ghm.one_eq

/-- The wrap-around of a negative index leaves a bin's word. -/
theorem wrap_eq (w : BitVec 32) (h : ∃ i' : Cert.Ghm.V10.Idx, w = Cert.Ghm.kw i') :
    Scalar.select (IntOp.cmpi .slt w 0#32) (IntOp.addi w 10#32) w = w := by
  obtain ⟨i', rfl⟩ := h
  have h10 : (i' 0).val < 10 := (i' 0).isLt
  have hc : IntOp.cmpi .slt (Cert.Ghm.kw i') 0#32 = 0#1 := by
    unfold IntOp.cmpi Cert.Ghm.kw
    rw [BitVec.slt, Cert.Ghm.toInt_ofNat_small _ (by omega), Cert.Ghm.toInt_ofNat_small 0 (by norm_num)]
    have hneg : ¬ ((((i' 0).val : ℕ) : ℤ) < ((0 : ℕ) : ℤ)) := by omega
    rw [decide_eq_false hneg]
    rfl
  unfold Scalar.select
  rw [hc, if_neg (by decide)]

/-- A scatter of ones from zeros, over ARBITRARY zero, index and one arrays known only pointwise: entry `i` is the
    number of elements whose bin word is bin `i`'s. -/
theorem scatter_count (zeros : FVec Ideal S10 .f32) (idx : IVec S12582912x1 32) (ones : FVec Ideal S12582912 .f32)
    (b : S8x1x96x128x128.Idx → BitVec 32) (hbr : ∀ e, ∃ i' : Cert.Ghm.V10.Idx, b e = Cert.Ghm.kw i')
    (hz : ∀ i, zeros i = 0) (ho : ∀ j, ones j = 1)
    (hidx : ∀ j0 : Fin 12582912, idx (ix2 j0 (0 : Fin 1)) = b (flat (ix1 j0))) (i : S10.Idx) :
    Host.scatterAdd (F := Ideal) dS zeros idx ones i = Cert.Ghm.cnt b (Cert.Ghm.kw i) := by
  show zeros i + ∑ j ∈ Finset.univ.filter (fun j => ScatterDims.resultIdx? dS j idx = some i), ones j = _
  rw [hz, zero_add, Finset.sum_filter]
  unfold Cert.Ghm.cnt
  rw [← Equiv.sum_comp flat (fun e => if b e = Cert.Ghm.kw i then (1 : EReal) else 0)]
  refine Finset.sum_congr rfl fun j _ => ?_
  obtain ⟨j0, rfl⟩ : ∃ j0 : Fin 12582912, j = ix1 j0 := ⟨j 0, eq_ix1 j⟩
  obtain ⟨i', hb⟩ := hbr (flat (ix1 j0))
  have h10 : (i' 0).val < 10 := (i' 0).isLt
  rw [ho]
  refine if_congr ((resultIdx?_iff idx j0 i (i' 0).val h10 ((hidx j0).trans hb)).trans ?_) rfl rfl
  rw [hb]
  constructor
  · intro e
    have : i' = i := funext fun a => by obtain rfl : a = 0 := Subsingleton.elim _ _; exact Fin.ext e
    rw [this]
  · intro e
    exact congrArg (fun f : Cert.Ghm.V10.Idx => (f 0).val) (Cert.Ghm.kw_injective e)

/-- A gather of a table known through `C` by an index array known pointwise: at an element, `C` of its bin word. -/
theorem gather_own (cnts : FVec Ideal S10 .f32) (idx : IVec S8x1x96x128x128x1 32) (C : BitVec 32 → EReal)
    (b : S8x1x96x128x128.Idx → BitVec 32) (hbr : ∀ e, ∃ i' : Cert.Ghm.V10.Idx, b e = Cert.Ghm.kw i')
    (hc : ∀ i, cnts i = C (Cert.Ghm.kw i)) (hidx : ∀ e, idx (takeIdx5 e) = b e) (e : S8x1x96x128x128.Idx) :
    Host.gather dG cnts idx e = C (b e) := by
  rw [gather_apply, hc]
  congr 1
  show BitVec.ofNat 32 (min (idx (takeIdx5 e)).toInt.toNat (10 - 1)) = b e
  rw [hidx]
  obtain ⟨i', hb⟩ := hbr e
  have h10 : (i' 0).val < 10 := (i' 0).isLt
  rw [hb]
  show BitVec.ofNat 32 (min (BitVec.ofNat 32 (i' 0).val).toInt.toNat (10 - 1)) = BitVec.ofNat 32 (i' 0).val
  rw [Cert.Ghm.toInt_ofNat_small _ (by omega), Int.toNat_natCast, Nat.min_eq_left (by omega)]

section Abstract
variable (b : IVec S8x1x96x128x128 32)

/-- The scatter's index array at update `j0`: the bin word of element `flat j0`. -/
theorem scatIdx_apply (hbr : ∀ e, ∃ i' : Cert.Ghm.V10.Idx, b e = Cert.Ghm.kw i') (j0 : Fin 12582912) :
    scatIdx b (ix2 j0 (0 : Fin 1)) = b (flat (ix1 j0)) := by
  unfold scatIdx
  rw [splatF_eq, splatF_eq]
  rw [broadcastInDim_apply _ bcast_S12582912_S12582912x1_0 _ _ (ix1 j0 : S12582912.Idx) (fun a => by
    obtain rfl : a = 0 := Subsingleton.elim _ _
    rw [if_neg (by decide)]; rfl)]
  exact wrap_eq _ (hbr _)

/-- The gather's index array at element `e`: its bin word. -/
theorem gathIdx_apply (hbr : ∀ e, ∃ i' : Cert.Ghm.V10.Idx, b e = Cert.Ghm.kw i') (e : S8x1x96x128x128.Idx) :
    gathIdx b (takeIdx5 e) = b e := by
  unfold gathIdx
  rw [splatI_eq, splatI_eq]
  rw [broadcastInDim_apply _ bcast_S8x1x96x128x128_S8x1x96x128x128x1_0_1_2_3_4 _ _ e (fun a => by
    have h1 : (e 1).val < 1 := (e 1).isLt
    fin_cases a
    · rw [if_neg (by decide)]; rfl
    · rw [if_pos (by decide)]; show (e 1).val = 0; omega
    · rw [if_neg (by decide)]; rfl
    · rw [if_neg (by decide)]; rfl
    · rw [if_neg (by decide)]; rfl)]
  exact wrap_eq _ (hbr _)

/-- The counts: entry `i` is the number of elements whose bin word is bin `i`'s. -/
theorem cntOf_apply (hbr : ∀ e, ∃ i' : Cert.Ghm.V10.Idx, b e = Cert.Ghm.kw i') (i : S10.Idx) :
    cntOf (F := Ideal) b i = Cert.Ghm.cnt b (Cert.Ghm.kw i) :=
  scatter_count (zeros10 (F := Ideal)) (scatIdx b) (onesFlat (F := Ideal)) b hbr zeros10_apply onesFlat_apply
    (scatIdx_apply b hbr) i

/-- Every element's own count: the gather reads the counts at the element's bin. -/
theorem gatherOf_apply (hbr : ∀ e, ∃ i' : Cert.Ghm.V10.Idx, b e = Cert.Ghm.kw i') (cnts : FVec Ideal S10 .f32)
    (C : BitVec 32 → EReal) (hc : ∀ i, cnts i = C (Cert.Ghm.kw i)) (e : S8x1x96x128x128.Idx) :
    gatherOf (F := Ideal) b cnts e = C (b e) :=
  gather_own cnts (gathIdx b) C b hbr hc (gathIdx_apply b hbr) e

end Abstract

/-- A weight at an element: `(T / own count) / max N 1`. -/
theorem wOf_apply (own : FVec Ideal S8x1x96x128x128 .f32) (n : FVec Ideal S_ .f32) (e : S8x1x96x128x128.Idx) :
    wOf (F := Ideal) own n e = Ideal.div (Ideal.div Cert.Ghm.tot (own e)) (max (n ix0) Cert.Ghm.one) := by
  unfold wOf
  rw [splat_eq]
  show Ideal.div (Ideal.div Cert.Ghm.tot (own e)) _ = _
  congr 1
  exact broadcastInDim_apply _ bcast_S_S8x1x96x128x128 _ e ix0 (fun a => a.elim0)

/-- The weighted sum over all elements, from zero, divided by `T`. -/
theorem lossOf_apply (w v : FVec Ideal S8x1x96x128x128 .f32) :
    lossOf (F := Ideal) w v ix0 = Ideal.div (Cert.Ghm.zero + ∑ e, w e * v e) Cert.Ghm.tot := by
  show Ideal.div (Ideal.hostReduceAdd reducesTo_S8x1x96x128x128_S_d0_1_2_3_4 (mulf w v) (Ideal.ofBits .f32 0x00000000#32) ix0) _ = _
  rw [Ideal.hostReduceAdd_total _ (fun b => b.elim0)]
  rfl

/-! ### The reference's own stages -/

variable (x y : FVec Ideal S8x1x96x128x128 .f32)

/-- The bin word and the term of every element. -/
abbrev bOf : S8x1x96x128x128.Idx → BitVec 32 := fun e => Cert.Ghm.bin (x e) (y e)
abbrev vOf : S8x1x96x128x128.Idx → EReal := fun e => Cert.Ghm.bce (x e) (y e)

theorem binArr_eq : binArr (F := Ideal) x y = bOf x y := by
  funext e
  unfold binArr
  rw [splat_eq, splat_eq, splatI_eq]
  show _ = Cert.Ghm.bin (x e) (y e)
  unfold Cert.Ghm.bin Ideal.logistic
  rw [← Cert.Ghm.one_eq]
  rfl

theorem bceArr_eq : bceArr (F := Ideal) x y = vOf x y := by
  funext e
  unfold bceArr
  rw [splat_eq]
  rfl

theorem bOf_range (e : S8x1x96x128x128.Idx) : ∃ i' : Cert.Ghm.V10.Idx, bOf x y e = Cert.Ghm.kw i' :=
  Cert.Ghm.bin_range (x e) (y e)

theorem cntArr_eq (i : S10.Idx) : cntArr (F := Ideal) x y i = Cert.Ghm.cnt (bOf x y) (Cert.Ghm.kw i) := by
  unfold cntArr
  rw [binArr_eq]
  exact cntOf_apply (bOf x y) (bOf_range x y) i

/-- The number of non-empty bins, as the reference computes it. -/
abbrev nb : EReal := nbArr (F := Ideal) (cntArr (F := Ideal) x y) ix0

theorem wArr_eq (e : S8x1x96x128x128.Idx) :
    wArr (F := Ideal) x y e
      = Ideal.div (Ideal.div Cert.Ghm.tot (Cert.Ghm.cnt (bOf x y) (bOf x y e))) (max (nb x y) Cert.Ghm.one) := by
  unfold wArr
  rw [wOf_apply, binArr_eq,
    gatherOf_apply (bOf x y) (bOf_range x y) (cntArr (F := Ideal) x y) (Cert.Ghm.cnt (bOf x y)) (cntArr_eq x y) e]

/-- THE REFERENCE'S RESULT is the loss summed element by element. -/
theorem result_eq :
    result (F := Ideal) x y ix0 = Cert.Ghm.lossByElement (nb x y) (bOf x y) (vOf x y) := by
  unfold result
  rw [lossOf_apply, bceArr_eq]
  unfold Cert.Ghm.lossByElement
  simp only [wArr_eq]

end Cert.ReferenceIdeal.RefRead

end
-- ==== Proof.Bridge.lean ====
/-
  The two results are one extended real.

  The kernel reads its arguments through a reshape to `[98304, 128]` (and, for the targets, a change of float format,
  which is the identity at the exact values): element `e` of the reshaped array is element `ρ e` of the argument,
  `ρ` the row-major correspondence of the two shapes' indices. So the kernel's bin words and terms are the
  reference's, re-indexed by `ρ`; a sum over all elements does not depend on how they are indexed; the numbers of
  non-empty bins agree because the counts do; and summed bin by bin or element by element the loss is the same.
-/
import proofs.«171834_j35974646072039_2_alg».proof.Proof.KernelLoss
import proofs.«171834_j35974646072039_2_alg».proof.Proof.RefRead

set_option maxRecDepth 16384

noncomputable section

namespace Cert.Ghm

open Idealize.ShloMosaic

variable {ι ι' : Type} [Fintype ι] [Fintype ι']

/-- A count does not depend on how the elements are indexed. -/
theorem cnt_comp (σ : ι' ≃ ι) (b : ι → BitVec 32) (k : BitVec 32) : cnt (fun e => b (σ e)) k = cnt b k :=
  Equiv.sum_comp σ (fun e => if b e = k then (1 : EReal) else 0)

/-- Nor does the loss summed element by element. -/
theorem lossByElement_comp (σ : ι' ≃ ι) (N : EReal) (b : ι → BitVec 32) (v : ι → EReal) :
    lossByElement N (fun e => b (σ e)) (fun e => v (σ e)) = lossByElement N b v := by
  unfold lossByElement
  congr 2
  rw [← Equiv.sum_comp σ (fun e => Ideal.div (Ideal.div tot (cnt b (b e))) (max N one) * v e)]
  refine Finset.sum_congr rfl fun e _ => ?_
  rw [cnt_comp σ b]

end Cert.Ghm

namespace Cert.Proof.Bridge

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ)

/-- The kernel's arguments on core `c`. -/
abbrev argX (c : Dev Cert.KernelIdeal.nD) : Cert.KernelIdeal.S8x1x96x128x128.Idx → EReal :=
  m ((c.tc : Thread Cert.KernelIdeal.nD Cert.KernelIdeal.τ).loc Cert.KernelIdeal.main_arg0)
abbrev argY (c : Dev Cert.KernelIdeal.nD) : Cert.KernelIdeal.S8x1x96x128x128.Idx → EReal :=
  m ((c.tc : Thread Cert.KernelIdeal.nD Cert.KernelIdeal.τ).loc Cert.KernelIdeal.main_arg1)

/-- The correspondence of the reshaped array's indices with the arguments'. -/
abbrev ρ : Cert.KernelIdeal.S98304x128.Idx ≃ Cert.KernelIdeal.S8x1x96x128x128.Idx :=
  Shape.reshapeEquiv Cert.KernelIdeal.Gen.shapeCasts_S8x1x96x128x128_S98304x128

/-- The logits as the region finds them: the argument, reshaped. -/
theorem xs_eq (c : Dev Cert.KernelIdeal.nD) (e : Cert.KernelIdeal.S98304x128.Idx) :
    Cert.KernelIdeal.Loss.xs m c e = argX m c (ρ e) := by
  have h : (Cert.KernelIdeal.Gen.V m c Cert.KernelIdeal.main_v0 : Cert.KernelIdeal.S98304x128.Idx → EReal)
      = shapeCast Cert.KernelIdeal.S98304x128 (argX m c) Cert.KernelIdeal.Gen.shapeCasts_S8x1x96x128x128_S98304x128 := by
    show StableHlo.after Cert.KernelIdeal.Gen.hostOps0 (fun b => m (c, b)) (Proc.devRef .tc Cert.KernelIdeal.main_v0) = _
    after_results
    rfl
  unfold Cert.KernelIdeal.Loss.xs
  rw [h]
  rfl

/-- The targets as the region finds them: the argument, reshaped (the change of format is the identity). -/
theorem ys_eq (c : Dev Cert.KernelIdeal.nD) (e : Cert.KernelIdeal.S98304x128.Idx) :
    Cert.KernelIdeal.Loss.ys m c e = argY m c (ρ e) := by
  have h : (Cert.KernelIdeal.Gen.V m c Cert.KernelIdeal.main_v2 : Cert.KernelIdeal.S98304x128.Idx → EReal)
      = truncf (F := Ideal) .bf16 (shapeCast Cert.KernelIdeal.S98304x128 (argY m c) Cert.KernelIdeal.Gen.shapeCasts_S8x1x96x128x128_S98304x128)
          Cert.KernelIdeal.Gen.bitsLt_bf16_f32 := by
    show StableHlo.after Cert.KernelIdeal.Gen.hostOps0 (fun b => m (c, b)) (Proc.devRef .tc Cert.KernelIdeal.main_v2) = _
    after_results
    rfl
  unfold Cert.KernelIdeal.Loss.ys
  rw [h]
  rfl

/-- The kernel's bin words and terms are the reference's, re-indexed. -/
theorem bOf_eq (c : Dev Cert.KernelIdeal.nD) :
    Cert.KernelIdeal.Loss.bOf m c = fun e => Cert.ReferenceIdeal.RefRead.bOf (argX m c) (argY m c) (ρ e) := by
  funext e
  unfold Cert.KernelIdeal.Loss.bOf
  rw [xs_eq, ys_eq]

theorem vOf_eq (c : Dev Cert.KernelIdeal.nD) :
    Cert.KernelIdeal.Loss.vOf m c = fun e => Cert.ReferenceIdeal.RefRead.vOf (argX m c) (argY m c) (ρ e) := by
  funext e
  unfold Cert.KernelIdeal.Loss.vOf
  rw [xs_eq, ys_eq]

/-- The two programs count the same number of non-empty bins. -/
theorem nb_eq (c : Dev Cert.KernelIdeal.nD) :
    Cert.KernelIdeal.Loss.nb m c = Cert.ReferenceIdeal.RefRead.nb (argX m c) (argY m c) := by
  unfold Cert.KernelIdeal.Loss.nb
  have hk : (fun i : Cert.KernelIdeal.S10.Idx => Cert.Ghm.cnt (Cert.KernelIdeal.Loss.bOf m c) (Cert.Ghm.kw i))
      = Cert.ReferenceIdeal.RefValue.cntArr (F := Ideal) (argX m c) (argY m c) := by
    funext i
    rw [Cert.ReferenceIdeal.RefRead.cntArr_eq, bOf_eq, Cert.Ghm.cnt_comp ρ]
  rw [hk]
  rfl

/-- THE BRIDGE: the reference's result is the kernel's. -/
theorem result_eq (c : Dev Cert.KernelIdeal.nD) :
    Cert.ReferenceIdeal.RefValue.result (F := Ideal) (argX m c) (argY m c)
      = Cert.KernelIdeal.Tail.tail (F := Ideal) (Cert.KernelIdeal.Arrays.cntArr m c) (Cert.KernelIdeal.Arrays.sumArr m c) := by
  funext i
  obtain rfl : i = ix0 := funext fun a => a.elim0
  have hN : ∃ r : ℝ, Cert.KernelIdeal.Loss.nb m c = (r : EReal) := ⟨_, rfl⟩
  have hb : ∀ e, ∃ i : Cert.Ghm.V10.Idx, Cert.KernelIdeal.Loss.bOf m c e = Cert.Ghm.kw i :=
    fun e => Cert.Ghm.bin_range _ _
  rw [Cert.ReferenceIdeal.RefRead.result_eq, Cert.KernelIdeal.Loss.result_eq,
    Cert.Ghm.lossByBin_eq_lossByElement (Cert.KernelIdeal.Loss.nb m c) hN (Cert.KernelIdeal.Loss.bOf m c)
      (Cert.KernelIdeal.Loss.vOf m c) hb,
    nb_eq, bOf_eq, vOf_eq, Cert.Ghm.lossByElement_comp ρ]

end Cert.Proof.Bridge

end
-- ==== Proof.lean ====
/-
  The certificate: the kernel and its reference compute the same loss at the exact values.

  The loss is the gradient-harmonized binary cross-entropy of `98304 * 128` elements: each element falls in one of
  ten bins by `⌊10 |σ(x) - y|⌋` (capped at 9), and its cross-entropy term is weighted by `(T / count of its bin) /
  max N 1`, `N` the number of non-empty bins, `T` the number of elements; the weighted terms are summed and divided
  by `T`. The reference does exactly this, element by element (a scatter of ones for the counts, a gather for each
  element's own count). The kernel streams the elements once, accumulating per bin and per lane the count and the sum
  of the terms over a grid of two cores by three blocks, and its host lines then form, bin by bin, weight times sum.
  The two agree because a weight is a non-negative real number and so distributes over its bin's sum, an empty
  bin's sum is zero, and a non-empty bin's count is at least one.

  The three frames are the generated frame certificates (the reference's is its run, read back, with the result
  dropped); the ideal pass rewrote nothing, so `preserves` is trivial; `algebraic` is the two runs read back, the
  arguments' agreement, and the bridge between the two results.
-/
import proofs.«171834_j35974646072039_2_alg».proof.Defs
import proofs.«171834_j35974646072039_2_alg».proof.Proof.Gen.Kernel
import proofs.«171834_j35974646072039_2_alg».proof.Proof.Gen.Kernel.Skeleton
import proofs.«171834_j35974646072039_2_alg».proof.Proof.Gen.Kernel.Launch
import proofs.«171834_j35974646072039_2_alg».proof.Proof.Gen.Kernel.Points
import proofs.«171834_j35974646072039_2_alg».proof.Proof.Gen.Kernel.Frame
import proofs.«171834_j35974646072039_2_alg».proof.Proof.Gen.KernelIdeal
import proofs.«171834_j35974646072039_2_alg».proof.Proof.Gen.KernelIdeal.Skeleton
import proofs.«171834_j35974646072039_2_alg».proof.Proof.Gen.KernelIdeal.Launch
import proofs.«171834_j35974646072039_2_alg».proof.Proof.Gen.KernelIdeal.Points
import proofs.«171834_j35974646072039_2_alg».proof.Proof.Gen.KernelIdeal.Frame
import proofs.«171834_j35974646072039_2_alg».proof.Proof.Gen.ReferenceIdeal
import proofs.«171834_j35974646072039_2_alg».proof.Proof.Gen.Pre_finite_inputs
import proofs.«171834_j35974646072039_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- At the exact values the kernel's result buffer ends at the host tail's function of its two output arrays and the
    reference's at its staged function of arguments that agree: one extended real (the bridge). -/
theorem algebraic : Cert.algebraic_KernelIdeal_ReferenceIdeal := by
  intro m ρ m' ρ' _ hagree
  refine ⟨fun c => Cert.KernelIdeal.Tail.tail (F := Ideal) (Cert.KernelIdeal.Arrays.cntArr m c) (Cert.KernelIdeal.Arrays.sumArr m c),
    Cert.KernelIdeal.Run.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2]
  exact Cert.Proof.Bridge.result_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
